-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S200000x64 : Shape := ⟨2, ![200000, 64]⟩
abbrev S2000000 : Shape := ⟨1, ![2000000]⟩
abbrev S64x64 : Shape := ⟨2, ![64, 64]⟩
abbrev S64 : Shape := ⟨1, ![64]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg12 : FVec F S64x64 .f32) (main_arg13 : FVec F S64x64 .f32) (main_arg14 : FVec F S64 .f32) (main_v33 : IVec S_ 1) : IVec S_ 1 :=
  let main_v34 : FVec F S64x64 .f32 := Host.absf main_arg12
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg13
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg14
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg9 : FVec F S64x64 .f32) (main_arg10 : FVec F S64 .f32) (main_arg11 : FVec F S64x64 .f32) (main_arg12 : FVec F S64x64 .f32) (main_arg13 : FVec F S64x64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg9
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg10
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg11
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg12 main_arg13 main_arg14 main_v33

def fn {F : FTy → Type} [FloatOps F] (main_arg0 : FVec F S500000x64 .f32) (main_arg1 : FVec F S200000x64 .f32) (main_arg2 : IVec S2000000 32) (main_arg3 : IVec S2000000 32) (main_arg4 : IVec S2000000 32) (main_arg5 : IVec S2000000 32) (main_arg6 : IVec S2000000 32) (main_arg7 : FVec F S64x64 .f32) (main_arg8 : FVec F S64 .f32) (main_arg9 : FVec F S64x64 .f32) (main_arg10 : FVec F S64 .f32) (main_arg11 : FVec F S64x64 .f32) (main_arg12 : FVec F S64x64 .f32) (main_arg13 : FVec F S64x64 .f32) (main_arg14 : FVec F S64 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S64x64 .f32 := Host.absf main_arg7
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg8
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg9 main_arg10 main_arg11 main_arg12 main_arg13 main_arg14 main_v13 main_v16
-- ==== Kernel.lean ====
abbrev S500000x64 : Shape := ⟨2, ![500000, 64]⟩
abbrev S200000x64 : Shape := ⟨2, ![200000, 64]⟩
abbrev S2000000 : Shape := ⟨1, ![2000000]⟩
abbrev S64x64 : Shape := ⟨2, ![64, 64]⟩
abbrev S64 : Shape := ⟨1, ![64]⟩
abbrev S1x64 : Shape := ⟨2, ![1, 64]⟩
abbrev S4000x64 : Shape := ⟨2, ![4000, 64]⟩
abbrev S_ : Shape := ⟨0, ![]⟩
abbrev S2000000x1 : Shape := ⟨2, ![2000000, 1]⟩
abbrev S2000000x64 : Shape := ⟨2, ![2000000, 64]⟩

abbrev nBuf : Space → Nat
  | .hbm => 59
  | .vmem => 28
  | .smem => 0
  | _ => 0

abbrev bufTy : (tb : Table) → Fin (tcTables nBuf tb) → BufTy
  | .hbm, ⟨0, _⟩ => ⟨S500000x64, .f32⟩
  | .hbm, ⟨1, _⟩ => ⟨S200000x64, .f32⟩
  | .hbm, ⟨2, _⟩ => ⟨S2000000, .i32⟩
  | .hbm, ⟨3, _⟩ => ⟨S2000000, .i32⟩
  | .hbm, ⟨4, _⟩ => ⟨S2000000, .i32⟩
  | .hbm, ⟨5, _⟩ => ⟨S2000000, .i32⟩
  | .hbm, ⟨6, _⟩ => ⟨S2000000, .i32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S1x64, .f32⟩
  | .hbm, ⟨16, _⟩ => ⟨S200000x64, .f32⟩
  | .hbm, ⟨17, _⟩ => ⟨S200000x64, .f32⟩
  | .hbm, ⟨18, _⟩ => ⟨S_, .i32⟩
  | .hbm, ⟨19, _⟩ => ⟨S2000000, .i32⟩
  | .hbm, ⟨20, _⟩ => ⟨S2000000, .i1⟩
  | .hbm, ⟨21, _⟩ => ⟨S_, .i32⟩
  | .hbm, ⟨22, _⟩ => ⟨S2000000, .i32⟩
  | .hbm, ⟨23, _⟩ => ⟨S2000000, .i32⟩
  | .hbm, ⟨24, _⟩ => ⟨S2000000, .i32⟩
  | .hbm, ⟨25, _⟩ => ⟨S2000000x1, .i32⟩
  | .hbm, ⟨26, _⟩ => ⟨S2000000x64, .f32⟩
  | .hbm, ⟨27, _⟩ => ⟨S_, .f32⟩
  | .hbm, ⟨28, _⟩ => ⟨S500000x64, .f32⟩
  | .hbm, ⟨29, _⟩ => ⟨S2000000x1, .i32⟩
  | .hbm, ⟨30, _⟩ => ⟨S500000x64, .f32⟩
  | .hbm, ⟨31, _⟩ => ⟨S1x64, .f32⟩
  | .hbm, ⟨32, _⟩ => ⟨S500000x64, .f32⟩
  | .hbm, ⟨33, _⟩ => ⟨S500000x64, .f32⟩
  | .hbm, ⟨34, _⟩ => ⟨S_, .i32⟩
  | .hbm, ⟨35, _⟩ => ⟨S2000000, .i32⟩
  | .hbm, ⟨36, _⟩ => ⟨S2000000, .i1⟩
  | .hbm, ⟨37, _⟩ => ⟨S_, .i32⟩
  | .hbm, ⟨38, _⟩ => ⟨S2000000, .i32⟩
  | .hbm, ⟨39, _⟩ => ⟨S2000000, .i32⟩
  | .hbm, ⟨40, _⟩ => ⟨S2000000, .i32⟩
  | .hbm, ⟨41, _⟩ => ⟨S2000000x1, .i32⟩
  | .hbm, ⟨42, _⟩ => ⟨S2000000x64, .f32⟩
  | .hbm, ⟨43, _⟩ => ⟨S_, .i32⟩
  | .hbm, ⟨44, _⟩ => ⟨S2000000, .i32⟩
  | .hbm, ⟨45, _⟩ => ⟨S2000000, .i1⟩
  | .hbm, ⟨46, _⟩ => ⟨S_, .i32⟩
  | .hbm, ⟨47, _⟩ => ⟨S2000000, .i32⟩
  | .hbm, ⟨48, _⟩ => ⟨S2000000, .i32⟩
  | .hbm, ⟨49, _⟩ => ⟨S2000000, .i32⟩
  | .hbm, ⟨50, _⟩ => ⟨S2000000x1, .i32⟩
  | .hbm, ⟨51, _⟩ => ⟨S2000000x64, .f32⟩
  | .hbm, ⟨52, _⟩ => ⟨S2000000x64, .f32⟩
  | .hbm, ⟨53, _⟩ => ⟨S_, .f32⟩
  | .hbm, ⟨54, _⟩ => ⟨S200000x64, .f32⟩
  | .hbm, ⟨55, _⟩ => ⟨S2000000x1, .i32⟩
  | .hbm, ⟨56, _⟩ => ⟨S200000x64, .f32⟩
  | .hbm, ⟨57, _⟩ => ⟨S1x64, .f32⟩
  | .hbm, ⟨58, _⟩ => ⟨S200000x64, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S64x64, .f32⟩
  | .local _ .vmem, ⟨12, _⟩ => ⟨S1x64, .f32⟩
  | .local _ .vmem, ⟨13, _⟩ => ⟨S4000x64, .f32⟩
  | .local _ .vmem, ⟨14, _⟩ => ⟨S4000x64, .f32⟩
  | .local _ .vmem, ⟨15, _⟩ => ⟨S64x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S64x64, .f32⟩
  | .local _ .vmem, ⟨25, _⟩ => ⟨S1x64, .f32⟩
  | .local _ .vmem, ⟨26, _⟩ => ⟨S4000x64, .f32⟩
  | .local _ .vmem, ⟨27, _⟩ => ⟨S4000x64, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1_0 : Ref sig .tc := ⟨.hbm, 16, rfl⟩
abbrev main_v1_1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S500000x64 : S_.BroadcastsInDim S500000x64 (![] : Fin 0 → Fin S500000x64.rank)
  shapeCasts_S4000x64_S4000x64 : S4000x64.ShapeCasts S4000x64
  bcast_S_S200000x64 : S_.BroadcastsInDim S200000x64 (![] : Fin 0 → Fin S200000x64.rank)
  dot_S4000x64_S64x64_S4000x64_1_0_0_1_n_n_wf : DotDims.WF S4000x64 S64x64 S4000x64 [1] [0] [0] [1] [] []
  gather_S200000x64_S2000000x1_S2000000x64_1_0_n_n_0_1_164_wf : GatherDims.WF S200000x64 S2000000x1 S2000000x64 [1] [0] [] [0] [] 1 ![1, 64]
  scatter_S500000x64_S2000000x1_S2000000x64_1_0_0_1_wf : ScatterDims.WF S500000x64 S2000000x1 S2000000x64 [1] [0] [0] 1
  gather_S500000x64_S2000000x1_S2000000x64_1_0_n_n_0_1_164_wf : GatherDims.WF S500000x64 S2000000x1 S2000000x64 [1] [0] [] [0] [] 1 ![1, 64]
  scatter_S200000x64_S2000000x1_S2000000x64_1_0_0_1_wf : ScatterDims.WF S200000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S200000x64.size a
  hwx0_0 : ∀ i : grid0.Coords, EltTy.bits .f32 = 32 ∨ (Rect.block (s := S200000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S200000x64.size a
  hwx0_4 : ∀ i : grid0.Coords, EltTy.bits .f32 = 32 ∨ (Rect.block (s := S200000x64) S4000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S200000x64.size a
  hwx0_5 : ∀ i : grid0.Coords, EltTy.bits .f32 = 32 ∨ (Rect.block (s := S200000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S500000x64.size a
  hwx1_0 : ∀ i : grid1.Coords, EltTy.bits .f32 = 32 ∨ (Rect.block (s := S500000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S500000x64.size a
  hwx1_3 : ∀ i : grid1.Coords, EltTy.bits .f32 = 32 ∨ (Rect.block (s := S500000x64) S4000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S500000x64.size a
  hwx1_5 : ∀ i : grid1.Coords, EltTy.bits .f32 = 32 ∨ (Rect.block (s := S500000x64) S4000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S500000x64.size a
  hwx1_6 : ∀ i : grid1.Coords, EltTy.bits .f32 = 32 ∨ (Rect.block (s := S500000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S200000x64.size a
  hwx2_0 : ∀ i : grid2.Coords, EltTy.bits .f32 = 32 ∨ (Rect.block (s := S200000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S200000x64.size a
  hwx2_1 : ∀ i : grid2.Coords, EltTy.bits .f32 = 32 ∨ (Rect.block (s := S200000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S200000x64.size a
  hwx2_4 : ∀ i : grid2.Coords, EltTy.bits .f32 = 32 ∨ (Rect.block (s := S200000x64) S4000x64.size (cc2_transform_4 i) (hinb2_4 i)).WholeWords (EltTy.packing .f32)

variable [Facts₀]

def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf

abbrev win0_0 : Pipeline.Window sig grid0 :=
  Pipeline.Window.ofSpec (Memref.whole main_arg1) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S4000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S4000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13_0) S4000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v13_1) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S500000x64 : Shape := ⟨2, ![500000, 64]⟩
abbrev S200000x64 : Shape := ⟨2, ![200000, 64]⟩
abbrev S2000000 : Shape := ⟨1, ![2000000]⟩
abbrev S64x64 : Shape := ⟨2, ![64, 64]⟩
abbrev S64 : Shape := ⟨1, ![64]⟩
abbrev S1x64 : Shape := ⟨2, ![1, 64]⟩
abbrev S_ : Shape := ⟨0, ![]⟩
abbrev S2000000x1 : Shape := ⟨2, ![2000000, 1]⟩
abbrev S2000000x64 : Shape := ⟨2, ![2000000, 64]⟩

abbrev nBuf : Space → Nat
  | .hbm => 85
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S200000x64, .f32⟩
  | .hbm, ⟨2, _⟩ => ⟨S2000000, .i32⟩
  | .hbm, ⟨3, _⟩ => ⟨S2000000, .i32⟩
  | .hbm, ⟨4, _⟩ => ⟨S2000000, .i32⟩
  | .hbm, ⟨5, _⟩ => ⟨S2000000, .i32⟩
  | .hbm, ⟨6, _⟩ => ⟨S2000000, .i32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S200000x64, .f32⟩
  | .hbm, ⟨16, _⟩ => ⟨S1x64, .f32⟩
  | .hbm, ⟨17, _⟩ => ⟨S200000x64, .f32⟩
  | .hbm, ⟨18, _⟩ => ⟨S200000x64, .f32⟩
  | .hbm, ⟨19, _⟩ => ⟨S200000x64, .f32⟩
  | .hbm, ⟨20, _⟩ => ⟨S200000x64, .f32⟩
  | .hbm, ⟨21, _⟩ => ⟨S_, .f32⟩
  | .hbm, ⟨22, _⟩ => ⟨S200000x64, .f32⟩
  | .hbm, ⟨23, _⟩ => ⟨S200000x64, .f32⟩
  | .hbm, ⟨24, _⟩ => ⟨S_, .f32⟩
  | .hbm, ⟨25, _⟩ => ⟨S200000x64, .f32⟩
  | .hbm, ⟨26, _⟩ => ⟨S200000x64, .f32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S2000000x64, .f32⟩
  | .hbm, ⟨36, _⟩ => ⟨S_, .f32⟩
  | .hbm, ⟨37, _⟩ => ⟨S500000x64, .f32⟩
  | .hbm, ⟨38, _⟩ => ⟨S2000000x1, .i32⟩
  | .hbm, ⟨39, _⟩ => ⟨S500000x64, .f32⟩
  | .hbm, ⟨40, _⟩ => ⟨S500000x64, .f32⟩
  | .hbm, ⟨41, _⟩ => ⟨S1x64, .f32⟩
  | .hbm, ⟨42, _⟩ => ⟨S500000x64, .f32⟩
  | .hbm, ⟨43, _⟩ => ⟨S500000x64, .f32⟩
  | .hbm, ⟨44, _⟩ => ⟨S500000x64, .f32⟩
  | .hbm, ⟨45, _⟩ => ⟨S500000x64, .f32⟩
  | .hbm, ⟨46, _⟩ => ⟨S_, .i32⟩
  | .hbm, ⟨47, _⟩ => ⟨S2000000, .i32⟩
  | .hbm, ⟨48, _⟩ => ⟨S2000000, .i1⟩
  | .hbm, ⟨49, _⟩ => ⟨S_, .i32⟩
  | .hbm, ⟨50, _⟩ => ⟨S2000000, .i32⟩
  | .hbm, ⟨51, _⟩ => ⟨S2000000, .i32⟩
  | .hbm, ⟨52, _⟩ => ⟨S2000000, .i32⟩
  | .hbm, ⟨53, _⟩ => ⟨S2000000x1, .i32⟩
  | .hbm, ⟨54, _⟩ => ⟨S2000000x64, .f32⟩
  | .hbm, ⟨55, _⟩ => ⟨S2000000x64, .f32⟩
  | .hbm, ⟨56, _⟩ => ⟨S_, .i32⟩
  | .hbm, ⟨57, _⟩ => ⟨S2000000, .i32⟩
  | .hbm, ⟨58, _⟩ => ⟨S2000000, .i1⟩
  | .hbm, ⟨59, _⟩ => ⟨S_, .i32⟩
  | .hbm, ⟨60, _⟩ => ⟨S2000000, .i32⟩
  | .hbm, ⟨61, _⟩ => ⟨S2000000, .i32⟩
  | .hbm, ⟨62, _⟩ => ⟨S2000000, .i32⟩
  | .hbm, ⟨63, _⟩ => ⟨S2000000x1, .i32⟩
  | .hbm, ⟨64, _⟩ => ⟨S2000000x64, .f32⟩
  | .hbm, ⟨65, _⟩ => ⟨S2000000x64, .f32⟩
  | .hbm, ⟨66, _⟩ => ⟨S2000000x64, .f32⟩
  | .hbm, ⟨67, _⟩ => ⟨S2000000x64, .f32⟩
  | .hbm, ⟨68, _⟩ => ⟨S_, .f32⟩
  | .hbm, ⟨69, _⟩ => ⟨S2000000x64, .f32⟩
  | .hbm, ⟨70, _⟩ => ⟨S2000000x64, .f32⟩
  | .hbm, ⟨71, _⟩ => ⟨S_, .f32⟩
  | .hbm, ⟨72, _⟩ => ⟨S2000000x64, .f32⟩
  | .hbm, ⟨73, _⟩ => ⟨S2000000x64, .f32⟩
  | .hbm, ⟨74, _⟩ => ⟨S2000000x64, .f32⟩
  | .hbm, ⟨75, _⟩ => ⟨S_, .f32⟩
  | .hbm, ⟨76, _⟩ => ⟨S200000x64, .f32⟩
  | .hbm, ⟨77, _⟩ => ⟨S2000000x1, .i32⟩
  | .hbm, ⟨78, _⟩ => ⟨S200000x64, .f32⟩
  | .hbm, ⟨79, _⟩ => ⟨S200000x64, .f32⟩
  | .hbm, ⟨80, _⟩ => ⟨S200000x64, .f32⟩
  | .hbm, ⟨81, _⟩ => ⟨S1x64, .f32⟩
  | .hbm, ⟨82, _⟩ => ⟨S200000x64, .f32⟩
  | .hbm, ⟨83, _⟩ => ⟨S200000x64, .f32⟩
  | .hbm, ⟨84, _⟩ => ⟨S200000x64, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_3 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S500000x64 : S_.BroadcastsInDim S500000x64 (![] : Fin 0 → Fin S500000x64.rank)
  bcast_S1x64_S500000x64_0_1 : S1x64.BroadcastsInDim S500000x64 (![0, 1] : Fin 2 → Fin S500000x64.rank)
  bcast_S_S2000000x64 : S_.BroadcastsInDim S2000000x64 (![] : Fin 0 → Fin S2000000x64.rank)
  dot_S200000x64_S64x64_S200000x64_1_0_0_1_n_n_wf : DotDims.WF S200000x64 S64x64 S200000x64 [1] [0] [0] [1] [] []
  gather_S200000x64_S2000000x1_S2000000x64_1_0_n_n_0_1_164_wf : GatherDims.WF S200000x64 S2000000x1 S2000000x64 [1] [0] [] [0] [] 1 ![1, 64]
  scatter_S500000x64_S2000000x1_S2000000x64_1_0_0_1_wf : ScatterDims.WF S500000x64 S2000000x1 S2000000x64 [1] [0] [0] 1
  dot_S500000x64_S64x64_S500000x64_1_0_0_1_n_n_wf : DotDims.WF S500000x64 S64x64 S500000x64 [1] [0] [0] [1] [] []
  dot_S2000000x64_S64x64_S2000000x64_1_0_0_1_n_n_wf : DotDims.WF S2000000x64 S64x64 S2000000x64 [1] [0] [0] [1] [] []
  gather_S500000x64_S2000000x1_S2000000x64_1_0_n_n_0_1_164_wf : GatherDims.WF S500000x64 S2000000x1 S2000000x64 [1] [0] [] [0] [] 1 ![1, 64]
  scatter_S200000x64_S2000000x1_S2000000x64_1_0_0_1_wf : ScatterDims.WF S200000x64 S2000000x1 S2000000x64 [1] [0] [0] 1

variable [Facts₀]

def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf

class Facts : Prop extends Facts₀ where

variable [Facts]
-- ==== Proof.KernelRun.lean ====
/-
  The idealized kernel's run with its two results named.

  The program is three tiled dense passes with gathers and scatter-sums on the host between them.  Every weakly
  fair execution terminates, nothing faults, and the memory it ends in is known buffer by buffer: it is the fold
  of the host stretches and of the three passes' write-backs over the launch memory.  Here that final memory is
  kept in the statement at the two result arrays (the nodes' new features and the hyperedges' new features),
  beside the unchanged arguments.
-/
import proofs.«118772_j20126216749524_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault;
    the nodes' and the hyperedges' result arrays end at the last boundary's contents and every argument array
    ends as launched. -/
theorem run_named : θ_run defs (onTc (τ := τ) (main (F := F))) ⟨m, fun _ => 0, ρ⟩ (fun r => ∀ c : Dev nD,
      r.2.mem ((c.tc : Thread nD τ).loc main_v13_0) = W6 m ρ c (Proc.devRef .tc main_v13_0)
      ∧ r.2.mem ((c.tc : Thread nD τ).loc main_v33) = W6 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v13_0 (by decide)),
       h c _ (mem_uc main_v33 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.Named

end
-- ==== Proof.Spec.lean ====
/-
  One layer of message passing on a hypergraph, as formulas on the extended reals.

  Rows are nodes or hyperedges, each carrying 64 features.  Every dense step is a product of a table of
  rows with a 64 x 64 matrix, followed by a function applied entry by entry:

    gate     (r, q) = logistic (sum_k A(r,k) Wg(k,q) + bg(q))
    nodeNew  (r, q) = tanh ((sum_k A(r,k) Wn(k,q) + bn(q)) * NW(r,q))
    nodeSig  (r, q) = logistic (sum_k X(r,k) Wv(k,q))
    hedgeNew (r, q) = tanh ((sum_k A(r,k) Ws(k,q) + AGG(r,q)) + bh(q))

  Entry (r, q) of each depends on row r of the tables only.  That is the whole reason the layer may be
  computed block of rows by block of rows, and the reason taking rows of a table commutes with each step.
-/
import Idealize.ShloMosaic.PureOps.Ideal
import Idealize.ShloMosaic.Lib.ValueIdx

noncomputable section

namespace Cert.HedgeSpec

open Idealize.ShloMosaic Idealize.ShloMosaic.ValueIdx

/-- A two-axis array read as a function of row and column. -/
abbrev cur {n k : Nat} (X : (⟨2, ![n, k]⟩ : Shape).Idx → EReal) : Fin n → Fin k → EReal := fun r q => X (ix2 r q)

/-- A one-axis array read as a function of its position. -/
abbrev cur1 {k : Nat} (b : (⟨1, ![k]⟩ : Shape).Idx → EReal) : Fin k → EReal := fun q => b (ix1 q)

/-- The one row of a [1, k] array read as a function of the column. -/
abbrev row0 {k : Nat} (b : (⟨2, ![1, k]⟩ : Shape).Idx → EReal) : Fin k → EReal := fun q => b (ix2 (0 : Fin 1) q)

/-- A function of row and column as a two-axis array. -/
abbrev arr {n k : Nat} (f : Fin n → Fin k → EReal) : (⟨2, ![n, k]⟩ : Shape).Idx → EReal := fun j => f (j 0) (j 1)

theorem arr_ix2 {n k : Nat} (f : Fin n → Fin k → EReal) (r : Fin n) (q : Fin k) : arr f (ix2 r q) = f r q := rfl

theorem cur_arr {n k : Nat} (f : Fin n → Fin k → EReal) : cur (arr f) = f := rfl

theorem arr_cur {n k : Nat} (X : (⟨2, ![n, k]⟩ : Shape).Idx → EReal) : arr (cur X) = X :=
  funext fun j => (congrArg X (eq_ix2 j)).symm

/-- Entry (r, q) of a table of rows times a 64 x 64 matrix. -/
def lin {n : Nat} (A : Fin n → Fin 64 → EReal) (W : Fin 64 → Fin 64 → EReal) (r : Fin n) (q : Fin 64) : EReal :=
  ∑ k : Fin 64, A r k * W k q

/-- The gate of a hyperedge: the logistic function of its features' affine image. -/
def gate {n : Nat} (A : Fin n → Fin 64 → EReal) (Wg : Fin 64 → Fin 64 → EReal) (bg : Fin 64 → EReal)
    (r : Fin n) (q : Fin 64) : EReal :=
  Ideal.logistic (lin A Wg r q + bg q)

/-- A node's new features: tanh of its affine image scaled, entry by entry, by the node's weight. -/
def nodeNew {n : Nat} (A : Fin n → Fin 64 → EReal) (Wn : Fin 64 → Fin 64 → EReal) (bn : Fin 64 → EReal)
    (NW : Fin n → Fin 64 → EReal) (r : Fin n) (q : Fin 64) : EReal :=
  Ideal.tanh ((lin A Wn r q + bn q) * NW r q)

/-- The logistic function of a node's new features' linear image. -/
def nodeSig {n : Nat} (X : Fin n → Fin 64 → EReal) (Wv : Fin 64 → Fin 64 → EReal) (r : Fin n) (q : Fin 64) : EReal :=
  Ideal.logistic (lin X Wv r q)

/-- A hyperedge's new features: tanh of its linear image plus the aggregated messages plus the bias. -/
def hedgeNew {n : Nat} (A : Fin n → Fin 64 → EReal) (Ws : Fin 64 → Fin 64 → EReal) (AGG : Fin n → Fin 64 → EReal)
    (bh : Fin 64 → EReal) (r : Fin n) (q : Fin 64) : EReal :=
  Ideal.tanh ((lin A Ws r q + AGG r q) + bh q)

/-! Each step sees only the row it is asked about: re-indexing the rows first and applying the step after
    is the step applied first and re-indexed after. -/

theorem lin_rows {n n' : Nat} (σ : Fin n' → Fin n) (A : Fin n → Fin 64 → EReal) (W : Fin 64 → Fin 64 → EReal)
    (r : Fin n') (q : Fin 64) : lin (fun r' => A (σ r')) W r q = lin A W (σ r) q := rfl

theorem gate_rows {n n' : Nat} (σ : Fin n' → Fin n) (A : Fin n → Fin 64 → EReal) (Wg : Fin 64 → Fin 64 → EReal)
    (bg : Fin 64 → EReal) (r : Fin n') (q : Fin 64) : gate (fun r' => A (σ r')) Wg bg r q = gate A Wg bg (σ r) q := rfl

theorem nodeNew_rows {n n' : Nat} (σ : Fin n' → Fin n) (A : Fin n → Fin 64 → EReal) (Wn : Fin 64 → Fin 64 → EReal)
    (bn : Fin 64 → EReal) (NW : Fin n → Fin 64 → EReal) (r : Fin n') (q : Fin 64) :
    nodeNew (fun r' => A (σ r')) Wn bn (fun r' => NW (σ r')) r q = nodeNew A Wn bn NW (σ r) q := rfl

theorem nodeSig_rows {n n' : Nat} (σ : Fin n' → Fin n) (X : Fin n → Fin 64 → EReal) (Wv : Fin 64 → Fin 64 → EReal)
    (r : Fin n') (q : Fin 64) : nodeSig (fun r' => X (σ r')) Wv r q = nodeSig X Wv (σ r) q := rfl

theorem hedgeNew_rows {n n' : Nat} (σ : Fin n' → Fin n) (A : Fin n → Fin 64 → EReal) (Ws : Fin 64 → Fin 64 → EReal)
    (AGG : Fin n → Fin 64 → EReal) (bh : Fin 64 → EReal) (r : Fin n') (q : Fin 64) :
    hedgeNew (fun r' => A (σ r')) Ws (fun r' => AGG (σ r')) bh r q = hedgeNew A Ws AGG bh (σ r) q := rfl

end Cert.HedgeSpec

end
-- ==== Proof.TileMath.lean ====
/-
  A block of rows of each dense step is the step applied to that block of rows.

  A tile of 4000 consecutive rows starting at row `off`, together with the whole weight matrix and the whole
  bias row, determines the same 4000 rows of the step's result: entry (off + p, q) of the whole result is entry
  (p, q) of the step applied to the tile.
-/
import proofs.«118772_j20126216749524_2_alg».proof.Proof.Spec

noncomputable section

namespace Cert.HedgeSpec

open Idealize.ShloMosaic Idealize.ShloMosaic.ValueIdx

variable {n : Nat}

/-- The tile's rows are rows off, …, off + 3999 of the table. -/
def IsTile (off : Nat) (hoff : off + 4000 ≤ n) (A : (⟨2, ![n, 64]⟩ : Shape).Idx → EReal)
    (x : (⟨2, ![4000, 64]⟩ : Shape).Idx → EReal) : Prop :=
  ∀ (p : Fin 4000) (k : Fin 64), x (ix2 p k) = A (ix2 ⟨off + p.val, by omega⟩ k)

theorem lin_tile (off : Nat) (hoff : off + 4000 ≤ n) (A : (⟨2, ![n, 64]⟩ : Shape).Idx → EReal)
    (x : (⟨2, ![4000, 64]⟩ : Shape).Idx → EReal) (W : Fin 64 → Fin 64 → EReal) (h : IsTile off hoff A x)
    (p : Fin 4000) (q : Fin 64) : lin (cur x) W p q = lin (cur A) W ⟨off + p.val, by omega⟩ q := by
  unfold lin
  exact Finset.sum_congr rfl fun k _ => by rw [show cur x p k = cur A ⟨off + p.val, by omega⟩ k from h p k]

theorem gate_tile (off : Nat) (hoff : off + 4000 ≤ n) (A : (⟨2, ![n, 64]⟩ : Shape).Idx → EReal)
    (x : (⟨2, ![4000, 64]⟩ : Shape).Idx → EReal) (W : Fin 64 → Fin 64 → EReal) (b : Fin 64 → EReal)
    (h : IsTile off hoff A x) (p : Fin 4000) (q : Fin 64) :
    gate (cur x) W b p q = gate (cur A) W b ⟨off + p.val, by omega⟩ q := by
  unfold gate; rw [lin_tile off hoff A x W h]

theorem nodeNew_tile (off : Nat) (hoff : off + 4000 ≤ n) (A NW : (⟨2, ![n, 64]⟩ : Shape).Idx → EReal)
    (x y : (⟨2, ![4000, 64]⟩ : Shape).Idx → EReal) (W : Fin 64 → Fin 64 → EReal) (b : Fin 64 → EReal)
    (h : IsTile off hoff A x) (h' : IsTile off hoff NW y) (p : Fin 4000) (q : Fin 64) :
    nodeNew (cur x) W b (cur y) p q = nodeNew (cur A) W b (cur NW) ⟨off + p.val, by omega⟩ q := by
  unfold nodeNew; rw [lin_tile off hoff A x W h, show cur y p q = cur NW ⟨off + p.val, by omega⟩ q from h' p q]

theorem nodeSig_tile (off : Nat) (hoff : off + 4000 ≤ n) (X : Fin n → Fin 64 → EReal)
    (x : Fin 4000 → Fin 64 → EReal) (W : Fin 64 → Fin 64 → EReal)
    (h : ∀ (p : Fin 4000) (k : Fin 64), x p k = X ⟨off + p.val, by omega⟩ k) (p : Fin 4000) (q : Fin 64) :
    nodeSig x W p q = nodeSig X W ⟨off + p.val, by omega⟩ q := by
  unfold nodeSig lin
  exact congrArg Ideal.logistic (Finset.sum_congr rfl fun k _ => by rw [h p k])

theorem hedgeNew_tile (off : Nat) (hoff : off + 4000 ≤ n) (A AGG : (⟨2, ![n, 64]⟩ : Shape).Idx → EReal)
    (x y : (⟨2, ![4000, 64]⟩ : Shape).Idx → EReal) (W : Fin 64 → Fin 64 → EReal) (b : Fin 64 → EReal)
    (h : IsTile off hoff A x) (h' : IsTile off hoff AGG y) (p : Fin 4000) (q : Fin 64) :
    hedgeNew (cur x) W (cur y) b p q = hedgeNew (cur A) W (cur AGG) b ⟨off + p.val, by omega⟩ q := by
  unfold hedgeNew; rw [lin_tile off hoff A x W h, show cur y p q = cur AGG ⟨off + p.val, by omega⟩ q from h' p q]

end Cert.HedgeSpec

end
-- ==== Proof.Payload.lean ====
/-
  The five values the three kernels store, read entry by entry.

  Each is built from the same few pieces.  A product of a table of rows with a 64 x 64 matrix, accumulated
  into a table of zeros, is at (p, q) the plain sum over k of A(p,k) W(k,q): the change of number format
  applied to the operands first is the identity on the extended reals, and adding to zero changes nothing.
  A [1, 64] bias row, recast to its own shape and repeated over 4000 rows, is at (p, q) the row's entry q.
  What is left is addition, multiplication, the logistic function and tanh, each applied entry by entry.
  Reading the pieces at (p, q) turns each stored value into the formula of the specification.
-/
import proofs.«118772_j20126216749524_2_alg».proof.Proof.Gen.KernelIdeal.Skeleton
import proofs.«118772_j20126216749524_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Cert.HedgeSpec Idealize.ShloMosaic Idealize.ShloMosaic.ValueIdx

variable [Cert.KernelIdeal.Facts]

/-- The dimension numbers of every product here: rows times contraction, contraction times columns. -/
abbrev D : DotDims S4000x64 S64x64 S4000x64 := dot_S4000x64_S64x64_S4000x64_1_0_0_1_n_n

/-! ## The operand positions of the product -/

/-- The left operand is read in the result's row … -/
theorem lhs_row (i : S4000x64.Idx) (c : D.contr.Idx) : (D.lhsIdx i c 0).val = (i 0).val := by
  unfold DotDims.lhsIdx
  rw [dif_neg (show ¬(0 : Fin S4000x64.rank) ∈ D.lhsBatch by decide),
    dif_pos (show (0 : Fin S4000x64.rank) ∈ D.lhsNonContracting by decide)]
  rfl

/-- … at the contraction's position; -/
theorem lhs_col (i : S4000x64.Idx) (c : D.contr.Idx) : (D.lhsIdx i c 1).val = (c ⟨0, by decide⟩).val :=
  D.lhsIdx_val_of_single rfl i c

/-- the right operand is read at the contraction's position … -/
theorem rhs_row (i : S4000x64.Idx) (c : D.contr.Idx) : (D.rhsIdx i c 0).val = (c ⟨0, by decide⟩).val :=
  D.rhsIdx_val_of_single rfl i c

/-- … in the result's column. -/
theorem rhs_col (i : S4000x64.Idx) (c : D.contr.Idx) : (D.rhsIdx i c 1).val = (i 1).val := by
  unfold DotDims.rhsIdx
  rw [dif_neg (show ¬(1 : Fin S64x64.rank) ∈ D.rhsBatch by decide),
    dif_pos (show (1 : Fin S64x64.rank) ∈ D.rhsNonContracting by decide)]
  rfl

/-! ## The two pieces -/

/-- A product accumulated into zeros is, at (p, q), the sum over k of A(p,k) W(k,q). -/
theorem matmul_zero_ix2 {φ₁ φ₂ : FTy} (a : FVec Ideal S4000x64 φ₁) (w : FVec Ideal S64x64 φ₂) (p : Fin 4000) (q : Fin 64) :
    matmul (F := Ideal) D none a w (constant (F := Ideal) S4000x64 .f32 0x00000000#32) (ix2 p q)
      = ∑ k : Fin 64, a (ix2 p k) * w (ix2 k q) := by
  simp only [matmul]
  rw [Ideal.matmul_constant_zero_apply, ← Equiv.sum_comp (contrEquiv1 D 64 rfl rfl).symm]
  refine Finset.sum_congr rfl fun k _ => ?_
  have hk := contrEquiv1_symm_val D 64 rfl rfl k
  have el : D.lhsIdx (ix2 p q) ((contrEquiv1 D 64 rfl rfl).symm k) = ix2 p k := funext fun ax => Fin.ext (by
    match ax with
    | ⟨0, _⟩ => exact lhs_row _ _
    | ⟨1, _⟩ => exact (lhs_col _ _).trans hk)
  have er : D.rhsIdx (ix2 p q) ((contrEquiv1 D 64 rfl rfl).symm k) = ix2 k q := funext fun ax => Fin.ext (by
    match ax with
    | ⟨0, _⟩ => exact (rhs_row _ _).trans hk
    | ⟨1, _⟩ => exact rhs_col _ _)
  rw [el, er]

/-- With the operands' number format changed first, which changes no extended real: entry (p, q) of the product. -/
theorem matmul_trunc_ix2 (x : Vec Ideal S4000x64 .f32) (w : Vec Ideal S64x64 .f32)
    (hx hw : FTy.bits .bf16 < FTy.bits .f32) (p : Fin 4000) (q : Fin 64) :
    matmul (F := Ideal) D none (truncf .bf16 x hx) (truncf .bf16 w hw)
        (constant (F := Ideal) S4000x64 .f32 0x00000000#32) (ix2 p q)
      = lin (cur x) (cur w) p q :=
  matmul_zero_ix2 _ _ p q

/-- The bias row recast to its own shape and repeated over the rows reads, at (p, q), the row's entry q. -/
theorem bias_ix2 (b : Vec Ideal S1x64 .f32) (h₁ : S1x64.ShapeCasts S1x64) (h₂ : S1x64.Broadcasts S4000x64)
    (p : Fin 4000) (q : Fin 64) :
    broadcastTo S4000x64 (shapeCast S1x64 b h₁) h₂ (ix2 p q) = row0 b q := by
  rw [shapeCast_self]
  exact broadcastTo_1b_ab_apply b h₂ p q

/-- A table recast to its own shape is the table. -/
theorem cast_ix2 (x : Vec Ideal S4000x64 .f32) (h : S4000x64.ShapeCasts S4000x64) (p : Fin 4000) (q : Fin 64) :
    shapeCast S4000x64 x h (ix2 p q) = cur x p q :=
  congrFun (shapeCast_self x h) (ix2 p q)

/-! ## The five stored values -/

/-- The gate of a block of hyperedges. -/
theorem pay_gate (x0 : Vec Ideal S4000x64 .f32) (x1 : Vec Ideal S64x64 .f32) (x2 : Vec Ideal S1x64 .f32) :
    k0_pay2 (F := Ideal) x0 x1 x2 = arr (gate (cur x0) (cur x1) (row0 x2)) := by
  funext j
  obtain ⟨p, q, rfl⟩ : ∃ (p : Fin 4000) (q : Fin 64), j = ix2 p q := ⟨j 0, j 1, eq_ix2 j⟩
  exact congrArg Ideal.logistic
    (congrArg₂ (· + ·) (matmul_trunc_ix2 x0 x1 _ _ p q) (bias_ix2 x2 _ _ p q))

/-- The linear image of a block of hyperedges. -/
theorem pay_lin (x0 : Vec Ideal S4000x64 .f32) (x3 : Vec Ideal S64x64 .f32) :
    k0_pay3 (F := Ideal) x0 x3 = arr (lin (cur x0) (cur x3)) := by
  funext j
  obtain ⟨p, q, rfl⟩ : ∃ (p : Fin 4000) (q : Fin 64), j = ix2 p q := ⟨j 0, j 1, eq_ix2 j⟩
  exact matmul_trunc_ix2 x0 x3 _ _ p q

/-- The new features of a block of nodes. -/
theorem pay_node (x0 : Vec Ideal S4000x64 .f32) (x1 : Vec Ideal S64x64 .f32) (x2 : Vec Ideal S1x64 .f32)
    (x3 : Vec Ideal S4000x64 .f32) :
    k1_pay1 (F := Ideal) x0 x1 x2 x3 = arr (nodeNew (cur x0) (cur x1) (row0 x2) (cur x3)) := by
  funext j
  obtain ⟨p, q, rfl⟩ : ∃ (p : Fin 4000) (q : Fin 64), j = ix2 p q := ⟨j 0, j 1, eq_ix2 j⟩
  exact congrArg Ideal.tanh
    (congrArg₂ (· * ·)
      (congrArg₂ (· + ·) (matmul_trunc_ix2 x0 x1 _ _ p q) (bias_ix2 x2 _ _ p q))
      (cast_ix2 x3 _ p q))

/-- The logistic function of the new features' linear image: the product's left operand is the value above. -/
theorem pay_sig (x0 : Vec Ideal S4000x64 .f32) (x1 : Vec Ideal S64x64 .f32) (x2 : Vec Ideal S1x64 .f32)
    (x3 : Vec Ideal S4000x64 .f32) (x4 : Vec Ideal S64x64 .f32) :
    k1_pay2 (F := Ideal) x0 x1 x2 x3 x4
      = arr (nodeSig (nodeNew (cur x0) (cur x1) (row0 x2) (cur x3)) (cur x4)) := by
  funext j
  obtain ⟨p, q, rfl⟩ : ∃ (p : Fin 4000) (q : Fin 64), j = ix2 p q := ⟨j 0, j 1, eq_ix2 j⟩
  exact congrArg Ideal.logistic
    ((matmul_trunc_ix2 (k1_pay1 (F := Ideal) x0 x1 x2 x3) x4 _ _ p q).trans
      (congrArg (fun X => lin (cur X) (cur x4) p q) (pay_node x0 x1 x2 x3)))

/-- The new features of a block of hyperedges. -/
theorem pay_hedge (x0 : Vec Ideal S4000x64 .f32) (x2 : Vec Ideal S64x64 .f32) (x5 : Vec Ideal S4000x64 .f32)
    (x8 : Vec Ideal S1x64 .f32) :
    k2_pay1 (F := Ideal) x0 x2 x5 x8 = arr (hedgeNew (cur x0) (cur x2) (cur x5) (row0 x8)) := by
  funext j
  obtain ⟨p, q, rfl⟩ : ∃ (p : Fin 4000) (q : Fin 64), j = ix2 p q := ⟨j 0, j 1, eq_ix2 j⟩
  exact congrArg Ideal.tanh
    (congrArg₂ (· + ·)
      (congrArg₂ (· + ·) (matmul_trunc_ix2 x0 x2 _ _ p q) (cast_ix2 x5 _ p q))
      (bias_ix2 x8 _ _ p q))

end Cert.KernelIdeal.Payload

end
-- ==== Proof.Blocks.lean ====
/-
  From tiles to whole arrays: what each of the three tiled passes leaves in its result arrays.

  Each pass walks its row axis in tiles of 4000 rows.  At grid point t it reads rows 4000 t, …, 4000 t + 3999 of its
  row-shaped operands and the whole of its weight matrices and bias row, computes a dense step on the tile, and
  writes the tile of the result back to the same rows.  A dense step's entry (r, q) depends on row r of its
  operands only, so the tile written at point t is rows 4000 t, …, 4000 t + 3999 of the step applied to the whole
  arrays; the tiles of the points 0, …, N - 1 cover every row (row r lies in the tile of point r / 4000); hence
  the result array ends as the step applied to the whole arrays.  All of it is stated at the arrays as the pass
  finds them when it is entered.
-/
import proofs.«118772_j20126216749524_2_alg».proof.Proof.Gen.KernelIdeal.Frame
import proofs.«118772_j20126216749524_2_alg».proof.Proof.TileMath
import proofs.«118772_j20126216749524_2_alg».proof.Proof.Payload
import Idealize.ShloMosaic.Lib.Pipeline.Value

set_option maxRecDepth 16384

noncomputable section

namespace Cert.KernelIdeal.Blocks

open Cert.KernelIdeal Cert.KernelIdeal.Gen Cert.HedgeSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Pass 0: tiles of 4000 rows over 50 grid points -/

/-- The index maps over the grid: a row window's block index is the grid point, a weight's or bias row's is zero. -/
theorem idx0 : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = t.val ∧ win0_4.index t (1 : Fin 2) = 0
  ∧ win0_5.index t (0 : Fin 2) = t.val ∧ win0_5.index t (1 : Fin 2) = 0 :=
  (by decide +kernel : ∀ t : Fin grid0.N, _)

/-- Window 0's block at point t is rows 4000 t, …, 4000 t + 3999 of its array. -/
theorem tile0_0 (c : Dev nD) (t : Fin cfg0.N) (hb : t.val * 4000 + 4000 ≤ 200000) :
    IsTile (n := 200000) (t.val * 4000) hb (V c main_arg1) (iblk0 V c 0 t) := by
  intro p k
  obtain ⟨e00, e01, e10, e11, e20, e21, e30, e31, e40, e41, e50, e51⟩ := idx0 t
  show V c main_arg1 (((cfg0.win 0).blk t).view.emb (ix2 p k)) = V c main_arg1 (ix2 ⟨t.val * 4000 + p.val, by omega⟩ k)
  refine congrArg (V c main_arg1) ?_
  funext a; apply Fin.ext
  match a with
  | ⟨0, _⟩ => show win0_0.index t (0 : Fin 2) * 4000 + 1 * p.val = t.val * 4000 + p.val; omega
  | ⟨1, _⟩ => show win0_0.index t (1 : Fin 2) * 64 + 1 * k.val = k.val; omega

/-- Window 1's block at every point is its whole array. -/
theorem whole0_1 (c : Dev nD) (t : Fin cfg0.N) : iblk0 V c 1 t = V c main_arg7 := by
  obtain ⟨e00, e01, e10, e11, e20, e21, e30, e31, e40, e41, e50, e51⟩ := idx0 t
  funext y
  show V c main_arg7 (((cfg0.win 1).blk t).view.emb y) = V c main_arg7 y
  refine congrArg (V c main_arg7) ?_
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- Window 2's block at every point is its whole array. -/
theorem whole0_2 (c : Dev nD) (t : Fin cfg0.N) : iblk0 V c 2 t = V c main_v0 := by
  obtain ⟨e00, e01, e10, e11, e20, e21, e30, e31, e40, e41, e50, e51⟩ := idx0 t
  funext y
  show V c main_v0 (((cfg0.win 2).blk t).view.emb y) = V c main_v0 y
  refine congrArg (V c main_v0) ?_
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Window 3's block at every point is its whole array. -/
theorem whole0_3 (c : Dev nD) (t : Fin cfg0.N) : iblk0 V c 3 t = V c main_arg11 := by
  obtain ⟨e00, e01, e10, e11, e20, e21, e30, e31, e40, e41, e50, e51⟩ := idx0 t
  funext y
  show V c main_arg11 (((cfg0.win 3).blk t).view.emb y) = V c main_arg11 y
  refine congrArg (V c main_arg11) ?_
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The gates of all hyperedges, from the arrays as the first pass finds them. -/
abbrev gateArr (c : Dev nD) : S200000x64.Idx → EReal :=
  arr (gate (cur (V c main_arg1)) (cur (V c main_arg7)) (row0 (V c main_v0)))

/-- What point t writes back through window 4 is rows 4000 t, …, 4000 t + 3999 of that array. -/
theorem flushed0_4_eq (c : Dev nD) (t : Fin cfg0.N) :
    (dat0 V c).flushed 4 t = ((cfg0.win 4).blk t).view.read (Elt Ideal) (gateArr V c) := by
  show (cfg0.win 4).cut (grid0.coords t) ((dat0 V c).after 4 t) = _
  rw [after0_4]
  unfold out0_4
  rw [View.canon_unit_zero hz]
  simp only [View.ld_unit_zero (S := S4000x64) hz, View.ld_unit_zero (S := S64x64) hz, View.ld_unit_zero (S := S1x64) hz]
  rw [Payload.pay_gate]
  funext j
  obtain ⟨e00, e01, e10, e11, e20, e21, e30, e31, e40, e41, e50, e51⟩ := idx0 t
  have ht : t.val < 50 := lt_of_lt_of_eq t.isLt N_0
  have hj0 : (j 0).val < 4000 := (j 0).isLt
  have hb : t.val * 4000 + 4000 ≤ 200000 := by omega
  show gate (cur (iblk0 V c 0 t)) (cur (iblk0 V c 1 t)) (row0 (iblk0 V c 2 t)) (j 0) (j 1)
     = gateArr V c (((cfg0.win 4).blk t).view.emb j)
  have hemb : ((cfg0.win 4).blk t).view.emb j = ix2 (⟨t.val * 4000 + (j 0).val, by omega⟩ : Fin 200000) (j 1) := by
    funext a; apply Fin.ext
    match a with
    | ⟨0, _⟩ => show win0_4.index t (0 : Fin 2) * 4000 + 1 * (j 0).val = t.val * 4000 + (j 0).val; omega
    | ⟨1, _⟩ => show win0_4.index t (1 : Fin 2) * 64 + 1 * (j 1).val = (j 1).val; omega
  rw [hemb, whole0_1 V c t, whole0_2 V c t]
  exact gate_tile (t.val * 4000) hb (V c main_arg1) (iblk0 V c 0 t) (cur (V c main_arg7)) (row0 (V c main_v0)) (tile0_0 V c t hb) (j 0) (j 1)

/-- An index of the array is in point t's block iff its row is among the block's rows. -/
theorem mem_blk0_4 (t : Fin cfg0.N) (i : S200000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_v1_0).slice (win0_4.rect t)).set ↔ _
  rw [View.set_slice_whole, Rect.mem_set_unit]
  exact Iff.rfl

/-- Every row lies in the block of the point numbered by its quotient by 4000. -/
theorem covered0_4 (i : S200000x64.Idx) :
    ∃ t : Fin cfg0.N, (cfg0.win 4).flush t = true ∧ i ∈ ((cfg0.win 4).blk t).view.set := by
  have hi0 : (i 0).val < 200000 := (i 0).isLt
  have hi1 : (i 1).val < 64 := (i 1).isLt
  have hN : cfg0.N = 50 := N_0
  let t : Fin cfg0.N := ⟨(i 0).val / 4000, by rw [hN]; omega⟩
  have htv : t.val = (i 0).val / 4000 := rfl
  obtain ⟨e00, e01, e10, e11, e20, e21, e30, e31, e40, e41, e50, e51⟩ := idx0 t
  refine ⟨t, flush0_4 t, ?_⟩
  rw [mem_blk0_4]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 64 ≤ (i 1).val ∧ (i 1).val < win0_4.index t (1 : Fin 2) * 64 + 64; omega

/-- The array window 4 ends holding: the gates of all hyperedges. -/
theorem final0_4 (c : Dev nD) : (dat0 V c).arrAt 4 cfg0.N = gateArr V c :=
  (dat0 V c).arrAt_eq_of_cover 4 (gateArr V c) (fun t _ => flushed0_4_eq V c t) (covered0_4)

/-- The hyperedges' features times the neighbour matrix, from the arrays as the first pass finds them. -/
abbrev whArr (c : Dev nD) : S200000x64.Idx → EReal :=
  arr (lin (cur (V c main_arg1)) (cur (V c main_arg11)))

/-- What point t writes back through window 5 is rows 4000 t, …, 4000 t + 3999 of that array. -/
theorem flushed0_5_eq (c : Dev nD) (t : Fin cfg0.N) :
    (dat0 V c).flushed 5 t = ((cfg0.win 5).blk t).view.read (Elt Ideal) (whArr V c) := by
  show (cfg0.win 5).cut (grid0.coords t) ((dat0 V c).after 5 t) = _
  rw [after0_5]
  unfold out0_5
  rw [View.canon_unit_zero hz]
  simp only [View.ld_unit_zero (S := S4000x64) hz, View.ld_unit_zero (S := S64x64) hz, View.ld_unit_zero (S := S1x64) hz]
  rw [Payload.pay_lin]
  funext j
  obtain ⟨e00, e01, e10, e11, e20, e21, e30, e31, e40, e41, e50, e51⟩ := idx0 t
  have ht : t.val < 50 := lt_of_lt_of_eq t.isLt N_0
  have hj0 : (j 0).val < 4000 := (j 0).isLt
  have hb : t.val * 4000 + 4000 ≤ 200000 := by omega
  show lin (cur (iblk0 V c 0 t)) (cur (iblk0 V c 3 t)) (j 0) (j 1)
     = whArr V c (((cfg0.win 5).blk t).view.emb j)
  have hemb : ((cfg0.win 5).blk t).view.emb j = ix2 (⟨t.val * 4000 + (j 0).val, by omega⟩ : Fin 200000) (j 1) := by
    funext a; apply Fin.ext
    match a with
    | ⟨0, _⟩ => show win0_5.index t (0 : Fin 2) * 4000 + 1 * (j 0).val = t.val * 4000 + (j 0).val; omega
    | ⟨1, _⟩ => show win0_5.index t (1 : Fin 2) * 64 + 1 * (j 1).val = (j 1).val; omega
  rw [hemb, whole0_3 V c t]
  exact lin_tile (t.val * 4000) hb (V c main_arg1) (iblk0 V c 0 t) (cur (V c main_arg11)) (tile0_0 V c t hb) (j 0) (j 1)

/-- An index of the array is in point t's block iff its row is among the block's rows. -/
theorem mem_blk0_5 (t : Fin cfg0.N) (i : S200000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v1_1).slice (win0_5.rect t)).set ↔ _
  rw [View.set_slice_whole, Rect.mem_set_unit]
  exact Iff.rfl

/-- Every row lies in the block of the point numbered by its quotient by 4000. -/
theorem covered0_5 (i : S200000x64.Idx) :
    ∃ t : Fin cfg0.N, (cfg0.win 5).flush t = true ∧ i ∈ ((cfg0.win 5).blk t).view.set := by
  have hi0 : (i 0).val < 200000 := (i 0).isLt
  have hi1 : (i 1).val < 64 := (i 1).isLt
  have hN : cfg0.N = 50 := N_0
  let t : Fin cfg0.N := ⟨(i 0).val / 4000, by rw [hN]; omega⟩
  have htv : t.val = (i 0).val / 4000 := rfl
  obtain ⟨e00, e01, e10, e11, e20, e21, e30, e31, e40, e41, e50, e51⟩ := idx0 t
  refine ⟨t, flush0_5 t, ?_⟩
  rw [mem_blk0_5]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 64 ≤ (i 1).val ∧ (i 1).val < win0_5.index t (1 : Fin 2) * 64 + 64; omega

/-- The array window 5 ends holding: the hyperedges' features times the neighbour matrix. -/
theorem final0_5 (c : Dev nD) : (dat0 V c).arrAt 5 cfg0.N = whArr V c :=
  (dat0 V c).arrAt_eq_of_cover 5 (whArr V c) (fun t _ => flushed0_5_eq V c t) (covered0_5)

/-! ## Pass 1: tiles of 4000 rows over 125 grid points -/

/-- The index maps over the grid: a row window's block index is the grid point, a weight's or bias row's is zero. -/
theorem idx1 : ∀ t : Fin cfg1.N,
    win1_0.index t (0 : Fin 2) = t.val ∧ win1_0.index t (1 : Fin 2) = 0
  ∧ win1_1.index t (0 : Fin 2) = 0 ∧ win1_1.index t (1 : Fin 2) = 0
  ∧ win1_2.index t (0 : Fin 2) = 0 ∧ win1_2.index t (1 : Fin 2) = 0
  ∧ win1_3.index t (0 : Fin 2) = t.val ∧ win1_3.index t (1 : Fin 2) = 0
  ∧ win1_4.index t (0 : Fin 2) = 0 ∧ win1_4.index t (1 : Fin 2) = 0
  ∧ win1_5.index t (0 : Fin 2) = t.val ∧ win1_5.index t (1 : Fin 2) = 0
  ∧ win1_6.index t (0 : Fin 2) = t.val ∧ win1_6.index t (1 : Fin 2) = 0 :=
  (by decide +kernel : ∀ t : Fin grid1.N, _)

/-- Window 0's block at point t is rows 4000 t, …, 4000 t + 3999 of its array. -/
theorem tile1_0 (c : Dev nD) (t : Fin cfg1.N) (hb : t.val * 4000 + 4000 ≤ 500000) :
    IsTile (n := 500000) (t.val * 4000) hb (V c main_arg0) (iblk1 V c 0 t) := by
  intro p k
  obtain ⟨e00, e01, e10, e11, e20, e21, e30, e31, e40, e41, e50, e51, e60, e61⟩ := idx1 t
  show V c main_arg0 (((cfg1.win 0).blk t).view.emb (ix2 p k)) = V c main_arg0 (ix2 ⟨t.val * 4000 + p.val, by omega⟩ k)
  refine congrArg (V c main_arg0) ?_
  funext a; apply Fin.ext
  match a with
  | ⟨0, _⟩ => show win1_0.index t (0 : Fin 2) * 4000 + 1 * p.val = t.val * 4000 + p.val; omega
  | ⟨1, _⟩ => show win1_0.index t (1 : Fin 2) * 64 + 1 * k.val = k.val; omega

/-- Window 3's block at point t is rows 4000 t, …, 4000 t + 3999 of its array. -/
theorem tile1_3 (c : Dev nD) (t : Fin cfg1.N) (hb : t.val * 4000 + 4000 ≤ 500000) :
    IsTile (n := 500000) (t.val * 4000) hb (V c main_v11) (iblk1 V c 3 t) := by
  intro p k
  obtain ⟨e00, e01, e10, e11, e20, e21, e30, e31, e40, e41, e50, e51, e60, e61⟩ := idx1 t
  show V c main_v11 (((cfg1.win 3).blk t).view.emb (ix2 p k)) = V c main_v11 (ix2 ⟨t.val * 4000 + p.val, by omega⟩ k)
  refine congrArg (V c main_v11) ?_
  funext a; apply Fin.ext
  match a with
  | ⟨0, _⟩ => show win1_3.index t (0 : Fin 2) * 4000 + 1 * p.val = t.val * 4000 + p.val; omega
  | ⟨1, _⟩ => show win1_3.index t (1 : Fin 2) * 64 + 1 * k.val = k.val; omega

/-- Window 1's block at every point is its whole array. -/
theorem whole1_1 (c : Dev nD) (t : Fin cfg1.N) : iblk1 V c 1 t = V c main_arg9 := by
  obtain ⟨e00, e01, e10, e11, e20, e21, e30, e31, e40, e41, e50, e51, e60, e61⟩ := idx1 t
  funext y
  show V c main_arg9 (((cfg1.win 1).blk t).view.emb y) = V c main_arg9 y
  refine congrArg (V c main_arg9) ?_
  funext a; apply Fin.ext
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- Window 2's block at every point is its whole array. -/
theorem whole1_2 (c : Dev nD) (t : Fin cfg1.N) : iblk1 V c 2 t = V c main_v12 := by
  obtain ⟨e00, e01, e10, e11, e20, e21, e30, e31, e40, e41, e50, e51, e60, e61⟩ := idx1 t
  funext y
  show V c main_v12 (((cfg1.win 2).blk t).view.emb y) = V c main_v12 y
  refine congrArg (V c main_v12) ?_
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- Window 4's block at every point is its whole array. -/
theorem whole1_4 (c : Dev nD) (t : Fin cfg1.N) : iblk1 V c 4 t = V c main_arg12 := by
  obtain ⟨e00, e01, e10, e11, e20, e21, e30, e31, e40, e41, e50, e51, e60, e61⟩ := idx1 t
  funext y
  show V c main_arg12 (((cfg1.win 4).blk t).view.emb y) = V c main_arg12 y
  refine congrArg (V c main_arg12) ?_
  funext a; apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- The nodes' new features, from the arrays as the second pass finds them. -/
abbrev nodeArr (c : Dev nD) : S500000x64.Idx → EReal :=
  arr (nodeNew (cur (V c main_arg0)) (cur (V c main_arg9)) (row0 (V c main_v12)) (cur (V c main_v11)))

/-- What point t writes back through window 5 is rows 4000 t, …, 4000 t + 3999 of that array. -/
theorem flushed1_5_eq (c : Dev nD) (t : Fin cfg1.N) :
    (dat1 V c).flushed 5 t = ((cfg1.win 5).blk t).view.read (Elt Ideal) (nodeArr V c) := by
  show (cfg1.win 5).cut (grid1.coords t) ((dat1 V c).after 5 t) = _
  rw [after1_5]
  unfold out1_5
  rw [View.canon_unit_zero hz]
  simp only [View.ld_unit_zero (S := S4000x64) hz, View.ld_unit_zero (S := S64x64) hz, View.ld_unit_zero (S := S1x64) hz]
  rw [Payload.pay_node]
  funext j
  obtain ⟨e00, e01, e10, e11, e20, e21, e30, e31, e40, e41, e50, e51, e60, e61⟩ := idx1 t
  have ht : t.val < 125 := lt_of_lt_of_eq t.isLt N_1
  have hj0 : (j 0).val < 4000 := (j 0).isLt
  have hb : t.val * 4000 + 4000 ≤ 500000 := by omega
  show nodeNew (cur (iblk1 V c 0 t)) (cur (iblk1 V c 1 t)) (row0 (iblk1 V c 2 t)) (cur (iblk1 V c 3 t)) (j 0) (j 1)
     = nodeArr V c (((cfg1.win 5).blk t).view.emb j)
  have hemb : ((cfg1.win 5).blk t).view.emb j = ix2 (⟨t.val * 4000 + (j 0).val, by omega⟩ : Fin 500000) (j 1) := by
    funext a; apply Fin.ext
    match a with
    | ⟨0, _⟩ => show win1_5.index t (0 : Fin 2) * 4000 + 1 * (j 0).val = t.val * 4000 + (j 0).val; omega
    | ⟨1, _⟩ => show win1_5.index t (1 : Fin 2) * 64 + 1 * (j 1).val = (j 1).val; omega
  rw [hemb, whole1_1 V c t, whole1_2 V c t]
  exact nodeNew_tile (t.val * 4000) hb (V c main_arg0) (V c main_v11) (iblk1 V c 0 t) (iblk1 V c 3 t) (cur (V c main_arg9)) (row0 (V c main_v12)) (tile1_0 V c t hb) (tile1_3 V c t hb) (j 0) (j 1)

/-- An index of the array is in point t's block iff its row is among the block's rows. -/
theorem mem_blk1_5 (t : Fin cfg1.N) (i : S500000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v13_0).slice (win1_5.rect t)).set ↔ _
  rw [View.set_slice_whole, Rect.mem_set_unit]
  exact Iff.rfl

/-- Every row lies in the block of the point numbered by its quotient by 4000. -/
theorem covered1_5 (i : S500000x64.Idx) :
    ∃ t : Fin cfg1.N, (cfg1.win 5).flush t = true ∧ i ∈ ((cfg1.win 5).blk t).view.set := by
  have hi0 : (i 0).val < 500000 := (i 0).isLt
  have hi1 : (i 1).val < 64 := (i 1).isLt
  have hN : cfg1.N = 125 := N_1
  let t : Fin cfg1.N := ⟨(i 0).val / 4000, by rw [hN]; omega⟩
  have htv : t.val = (i 0).val / 4000 := rfl
  obtain ⟨e00, e01, e10, e11, e20, e21, e30, e31, e40, e41, e50, e51, e60, e61⟩ := idx1 t
  refine ⟨t, flush1_5 t, ?_⟩
  rw [mem_blk1_5]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 64 ≤ (i 1).val ∧ (i 1).val < win1_5.index t (1 : Fin 2) * 64 + 64; omega

/-- The array window 5 ends holding: the nodes' new features. -/
theorem final1_5 (c : Dev nD) : (dat1 V c).arrAt 5 cfg1.N = nodeArr V c :=
  (dat1 V c).arrAt_eq_of_cover 5 (nodeArr V c) (fun t _ => flushed1_5_eq V c t) (covered1_5)

/-- The logistic function of the nodes' new features' linear image, from the arrays as the second pass finds them. -/
abbrev sigArr (c : Dev nD) : S500000x64.Idx → EReal :=
  arr (nodeSig (nodeNew (cur (V c main_arg0)) (cur (V c main_arg9)) (row0 (V c main_v12)) (cur (V c main_v11))) (cur (V c main_arg12)))

/-- What point t writes back through window 6 is rows 4000 t, …, 4000 t + 3999 of that array. -/
theorem flushed1_6_eq (c : Dev nD) (t : Fin cfg1.N) :
    (dat1 V c).flushed 6 t = ((cfg1.win 6).blk t).view.read (Elt Ideal) (sigArr V c) := by
  show (cfg1.win 6).cut (grid1.coords t) ((dat1 V c).after 6 t) = _
  rw [after1_6]
  unfold out1_6
  rw [View.canon_unit_zero hz]
  simp only [View.ld_unit_zero (S := S4000x64) hz, View.ld_unit_zero (S := S64x64) hz, View.ld_unit_zero (S := S1x64) hz]
  rw [Payload.pay_sig]
  funext j
  obtain ⟨e00, e01, e10, e11, e20, e21, e30, e31, e40, e41, e50, e51, e60, e61⟩ := idx1 t
  have ht : t.val < 125 := lt_of_lt_of_eq t.isLt N_1
  have hj0 : (j 0).val < 4000 := (j 0).isLt
  have hb : t.val * 4000 + 4000 ≤ 500000 := by omega
  show nodeSig (nodeNew (cur (iblk1 V c 0 t)) (cur (iblk1 V c 1 t)) (row0 (iblk1 V c 2 t)) (cur (iblk1 V c 3 t))) (cur (iblk1 V c 4 t)) (j 0) (j 1)
     = sigArr V c (((cfg1.win 6).blk t).view.emb j)
  have hemb : ((cfg1.win 6).blk t).view.emb j = ix2 (⟨t.val * 4000 + (j 0).val, by omega⟩ : Fin 500000) (j 1) := by
    funext a; apply Fin.ext
    match a with
    | ⟨0, _⟩ => show win1_6.index t (0 : Fin 2) * 4000 + 1 * (j 0).val = t.val * 4000 + (j 0).val; omega
    | ⟨1, _⟩ => show win1_6.index t (1 : Fin 2) * 64 + 1 * (j 1).val = (j 1).val; omega
  rw [hemb, whole1_1 V c t, whole1_2 V c t, whole1_4 V c t]
  exact nodeSig_tile (t.val * 4000) hb (nodeNew (cur (V c main_arg0)) (cur (V c main_arg9)) (row0 (V c main_v12)) (cur (V c main_v11))) (nodeNew (cur (iblk1 V c 0 t)) (cur (V c main_arg9)) (row0 (V c main_v12)) (cur (iblk1 V c 3 t))) (cur (V c main_arg12)) (fun p k => nodeNew_tile (t.val * 4000) hb (V c main_arg0) (V c main_v11) (iblk1 V c 0 t) (iblk1 V c 3 t) (cur (V c main_arg9)) (row0 (V c main_v12)) (tile1_0 V c t hb) (tile1_3 V c t hb) p k) (j 0) (j 1)

/-- An index of the array is in point t's block iff its row is among the block's rows. -/
theorem mem_blk1_6 (t : Fin cfg1.N) (i : S500000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v13_1).slice (win1_6.rect t)).set ↔ _
  rw [View.set_slice_whole, Rect.mem_set_unit]
  exact Iff.rfl

/-- Every row lies in the block of the point numbered by its quotient by 4000. -/
theorem covered1_6 (i : S500000x64.Idx) :
    ∃ t : Fin cfg1.N, (cfg1.win 6).flush t = true ∧ i ∈ ((cfg1.win 6).blk t).view.set := by
  have hi0 : (i 0).val < 500000 := (i 0).isLt
  have hi1 : (i 1).val < 64 := (i 1).isLt
  have hN : cfg1.N = 125 := N_1
  let t : Fin cfg1.N := ⟨(i 0).val / 4000, by rw [hN]; omega⟩
  have htv : t.val = (i 0).val / 4000 := rfl
  obtain ⟨e00, e01, e10, e11, e20, e21, e30, e31, e40, e41, e50, e51, e60, e61⟩ := idx1 t
  refine ⟨t, flush1_6 t, ?_⟩
  rw [mem_blk1_6]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 64 ≤ (i 1).val ∧ (i 1).val < win1_6.index t (1 : Fin 2) * 64 + 64; omega

/-- The array window 6 ends holding: the logistic function of the new node features' linear image. -/
theorem final1_6 (c : Dev nD) : (dat1 V c).arrAt 6 cfg1.N = sigArr V c :=
  (dat1 V c).arrAt_eq_of_cover 6 (sigArr V c) (fun t _ => flushed1_6_eq V c t) (covered1_6)

/-! ## Pass 2: tiles of 4000 rows over 50 grid points -/

/-- The index maps over the grid: a row window's block index is the grid point, a weight's or bias row's is zero. -/
theorem idx2 : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = t.val ∧ win2_4.index t (1 : Fin 2) = 0 :=
  (by decide +kernel : ∀ t : Fin grid2.N, _)

/-- Window 0's block at point t is rows 4000 t, …, 4000 t + 3999 of its array. -/
theorem tile2_0 (c : Dev nD) (t : Fin cfg2.N) (hb : t.val * 4000 + 4000 ≤ 200000) :
    IsTile (n := 200000) (t.val * 4000) hb (V c main_arg1) (iblk2 V c 0 t) := by
  intro p k
  obtain ⟨e00, e01, e10, e11, e20, e21, e30, e31, e40, e41⟩ := idx2 t
  show V c main_arg1 (((cfg2.win 0).blk t).view.emb (ix2 p k)) = V c main_arg1 (ix2 ⟨t.val * 4000 + p.val, by omega⟩ k)
  refine congrArg (V c main_arg1) ?_
  funext a; apply Fin.ext
  match a with
  | ⟨0, _⟩ => show win2_0.index t (0 : Fin 2) * 4000 + 1 * p.val = t.val * 4000 + p.val; omega
  | ⟨1, _⟩ => show win2_0.index t (1 : Fin 2) * 64 + 1 * k.val = k.val; omega

/-- Window 1's block at point t is rows 4000 t, …, 4000 t + 3999 of its array. -/
theorem tile2_1 (c : Dev nD) (t : Fin cfg2.N) (hb : t.val * 4000 + 4000 ≤ 200000) :
    IsTile (n := 200000) (t.val * 4000) hb (V c main_v31) (iblk2 V c 1 t) := by
  intro p k
  obtain ⟨e00, e01, e10, e11, e20, e21, e30, e31, e40, e41⟩ := idx2 t
  show V c main_v31 (((cfg2.win 1).blk t).view.emb (ix2 p k)) = V c main_v31 (ix2 ⟨t.val * 4000 + p.val, by omega⟩ k)
  refine congrArg (V c main_v31) ?_
  funext a; apply Fin.ext
  match a with
  | ⟨0, _⟩ => show win2_1.index t (0 : Fin 2) * 4000 + 1 * p.val = t.val * 4000 + p.val; omega
  | ⟨1, _⟩ => show win2_1.index t (1 : Fin 2) * 64 + 1 * k.val = k.val; omega

/-- Window 2's block at every point is its whole array. -/
theorem whole2_2 (c : Dev nD) (t : Fin cfg2.N) : iblk2 V c 2 t = V c main_arg13 := by
  obtain ⟨e00, e01, e10, e11, e20, e21, e30, e31, e40, e41⟩ := idx2 t
  funext y
  show V c main_arg13 (((cfg2.win 2).blk t).view.emb y) = V c main_arg13 y
  refine congrArg (V c main_arg13) ?_
  funext a; apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Window 3's block at every point is its whole array. -/
theorem whole2_3 (c : Dev nD) (t : Fin cfg2.N) : iblk2 V c 3 t = V c main_v32 := by
  obtain ⟨e00, e01, e10, e11, e20, e21, e30, e31, e40, e41⟩ := idx2 t
  funext y
  show V c main_v32 (((cfg2.win 3).blk t).view.emb y) = V c main_v32 y
  refine congrArg (V c main_v32) ?_
  funext a; apply Fin.ext
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- The hyperedges' new features, from the arrays as the third pass finds them. -/
abbrev hedgeArr (c : Dev nD) : S200000x64.Idx → EReal :=
  arr (hedgeNew (cur (V c main_arg1)) (cur (V c main_arg13)) (cur (V c main_v31)) (row0 (V c main_v32)))

/-- What point t writes back through window 4 is rows 4000 t, …, 4000 t + 3999 of that array. -/
theorem flushed2_4_eq (c : Dev nD) (t : Fin cfg2.N) :
    (dat2 V c).flushed 4 t = ((cfg2.win 4).blk t).view.read (Elt Ideal) (hedgeArr V c) := by
  show (cfg2.win 4).cut (grid2.coords t) ((dat2 V c).after 4 t) = _
  rw [after2_4]
  unfold out2_4
  rw [View.canon_unit_zero hz]
  simp only [View.ld_unit_zero (S := S4000x64) hz, View.ld_unit_zero (S := S64x64) hz, View.ld_unit_zero (S := S1x64) hz]
  rw [Payload.pay_hedge]
  funext j
  obtain ⟨e00, e01, e10, e11, e20, e21, e30, e31, e40, e41⟩ := idx2 t
  have ht : t.val < 50 := lt_of_lt_of_eq t.isLt N_2
  have hj0 : (j 0).val < 4000 := (j 0).isLt
  have hb : t.val * 4000 + 4000 ≤ 200000 := by omega
  show hedgeNew (cur (iblk2 V c 0 t)) (cur (iblk2 V c 2 t)) (cur (iblk2 V c 1 t)) (row0 (iblk2 V c 3 t)) (j 0) (j 1)
     = hedgeArr V c (((cfg2.win 4).blk t).view.emb j)
  have hemb : ((cfg2.win 4).blk t).view.emb j = ix2 (⟨t.val * 4000 + (j 0).val, by omega⟩ : Fin 200000) (j 1) := by
    funext a; apply Fin.ext
    match a with
    | ⟨0, _⟩ => show win2_4.index t (0 : Fin 2) * 4000 + 1 * (j 0).val = t.val * 4000 + (j 0).val; omega
    | ⟨1, _⟩ => show win2_4.index t (1 : Fin 2) * 64 + 1 * (j 1).val = (j 1).val; omega
  rw [hemb, whole2_2 V c t, whole2_3 V c t]
  exact hedgeNew_tile (t.val * 4000) hb (V c main_arg1) (V c main_v31) (iblk2 V c 0 t) (iblk2 V c 1 t) (cur (V c main_arg13)) (row0 (V c main_v32)) (tile2_0 V c t hb) (tile2_1 V c t hb) (j 0) (j 1)

/-- An index of the array is in point t's block iff its row is among the block's rows. -/
theorem mem_blk2_4 (t : Fin cfg2.N) (i : S200000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v33).slice (win2_4.rect t)).set ↔ _
  rw [View.set_slice_whole, Rect.mem_set_unit]
  exact Iff.rfl

/-- Every row lies in the block of the point numbered by its quotient by 4000. -/
theorem covered2_4 (i : S200000x64.Idx) :
    ∃ t : Fin cfg2.N, (cfg2.win 4).flush t = true ∧ i ∈ ((cfg2.win 4).blk t).view.set := by
  have hi0 : (i 0).val < 200000 := (i 0).isLt
  have hi1 : (i 1).val < 64 := (i 1).isLt
  have hN : cfg2.N = 50 := N_2
  let t : Fin cfg2.N := ⟨(i 0).val / 4000, by rw [hN]; omega⟩
  have htv : t.val = (i 0).val / 4000 := rfl
  obtain ⟨e00, e01, e10, e11, e20, e21, e30, e31, e40, e41⟩ := idx2 t
  refine ⟨t, flush2_4 t, ?_⟩
  rw [mem_blk2_4]
  intro a
  match a with
  | ⟨0, _⟩ => show win2_4.index t (0 : Fin 2) * 4000 ≤ (i 0).val ∧ (i 0).val < win2_4.index t (0 : Fin 2) * 4000 + 4000; omega
  | ⟨1, _⟩ => show win2_4.index t (1 : Fin 2) * 64 ≤ (i 1).val ∧ (i 1).val < win2_4.index t (1 : Fin 2) * 64 + 64; omega

/-- The array window 4 ends holding: the hyperedges' new features. -/
theorem final2_4 (c : Dev nD) : (dat2 V c).arrAt 4 cfg2.N = hedgeArr V c :=
  (dat2 V c).arrAt_eq_of_cover 4 (hedgeArr V c) (fun t _ => flushed2_4_eq V c t) (covered2_4)

end Cert.KernelIdeal.Blocks

end
-- ==== Proof.KernelStages.lean ====
/-
  What the kernel program's host stretches leave in the buffers its three tiled passes read.

  The program is three tiled passes (regions 0, 1, 2) among stretches of host operations.  The buffer contents at
  the seven boundaries are W0 (the launch), W1 (after the first stretch: region 0's entry), W2 (region 0's exit),
  W3 (after the second stretch: region 1's entry), W4 (region 1's exit), W5 (after the third stretch: region 2's
  entry) and W6 (region 2's exit, the return).

  A host stretch changes only the buffers its operations write, and a region changes only its output arrays.
  So every argument buffer still holds its launch contents wherever it is read, and each buffer a stretch writes
  holds the stretch's operations applied to what the operand buffers held when the stretch began.

  The statements, c a core and "launch b" the launch contents of buffer b on c:

    region 0's entry (W1)   entry0_arg1, entry0_arg7, entry0_arg11 : the hyperedge features and the two matrices region 0
                            reads are launch main_arg1, main_arg7, main_arg11;
                            entry0_bias : main_v0 is launch main_arg8 at the shape [1, 64].
    region 1's entry (W3)   entry1_arg0, entry1_arg9, entry1_arg12 : launch main_arg0, main_arg9, main_arg12;
                            entry1_bias : main_v12 is launch main_arg10 at the shape [1, 64];
                            entry1_weight : main_v11 is the scatter-add, from zero and at the column of launch main_arg2,
                            of the rows of region 0's first result (W2 at main_v1_0) taken at the column of launch
                            main_arg3 with its negative entries wrapped by 200000.
    region 2's entry (W5)   entry2_arg1, entry2_arg13 : launch main_arg1, main_arg13;
                            entry2_bias : main_v32 is launch main_arg14 at the shape [1, 64];
                            entry2_agg : main_v31 is the scatter-add, from zero and at the column of launch main_arg4, of
                            the product of the rows of region 0's second result (W2 at main_v1_1) taken at the wrapped
                            column of launch main_arg5 (by 200000) and the rows of region 1's second result (W4 at
                            main_v13_1) taken at the wrapped column of launch main_arg6 (by 500000).
    the return (W6)         result0_kept : main_v13_0 is what region 1 left there (W4 at main_v13_0).

  On the way: W1_of, W3_of, W5_of (a stretch keeps what it does not write), W2_in (region 0 keeps an input array),
  W2_kept, W3_kept, W4_kept, W5_kept (a buffer no region owns and no stretch writes is as launched), and the argument
  reads W2_arg2, W2_arg3, W2_arg10, W4_arg4, W4_arg5, W4_arg6, W4_arg14, W4_v1_1.
-/
import proofs.«118772_j20126216749524_2_alg».proof.Proof.Gen.KernelIdeal.Frame
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-! ## The buffers each host stretch writes -/

/-- The one buffer the first stretch writes. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)

/-- The buffers the second stretch writes. -/
abbrev hostOps1_W : List (Ref sig .tc) :=
  [main_c, main_v2, main_v3, main_c_0, main_v4, main_v5, main_v6, main_v7, main_v8, main_cst, main_v9, main_v10, main_v11, main_v12]
theorem hostOps1_writes : (hostOps1 : List (HloOp τ sig (Elt F))).Forall fun op => op.writes ⊆ (hostOps1_W.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the third stretch writes. -/
abbrev hostOps2_W : List (Ref sig .tc) :=
  [main_c_1, main_v14, main_v15, main_c_2, main_v16, main_v17, main_v18, main_v19, main_v20, main_c_3, main_v21, main_v22,
   main_c_4, main_v23, main_v24, main_v25, main_v26, main_v27, main_v28, main_cst_5, main_v29, main_v30, main_v31, main_v32]
theorem hostOps2_writes : (hostOps2 : List (HloOp τ sig (Elt F))).Forall fun op => op.writes ⊆ (hostOps2_W.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

variable (m : (ℓ : Loc nD τ sig) → Buf (Elt F) ℓ) (ρ : Dev nD → PrngReg)

/-! ## One boundary back -/

/-- A buffer the first stretch does not write holds at region 0's entry what it held at launch. -/
theorem W1_of (c : Dev nD) (b : Ref sig .tc) (h : b ∉ hostOps0_W) :
    W1 m ρ c (Proc.devRef .tc b) = m ((c : Thread nD τ).loc b) :=
  (StableHlo.after_of_writes_sub hostOps0 _ hostOps0_writes h).trans rfl

/-- A buffer the second stretch does not write holds at region 1's entry what it held at region 0's exit. -/
theorem W3_of (c : Dev nD) (b : Ref sig .tc) (h : b ∉ hostOps1_W) :
    W3 m ρ c (Proc.devRef .tc b) = W2 m ρ c (Proc.devRef .tc b) :=
  StableHlo.after_of_writes_sub hostOps1 _ hostOps1_writes h

/-- A buffer the third stretch does not write holds at region 2's entry what it held at region 1's exit. -/
theorem W5_of (c : Dev nD) (b : Ref sig .tc) (h : b ∉ hostOps2_W) :
    W5 m ρ c (Proc.devRef .tc b) = W4 m ρ c (Proc.devRef .tc b) :=
  StableHlo.after_of_writes_sub hostOps2 _ hostOps2_writes h

/-- An input array of region 0 holds at the region's exit what it held at its entry. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-! ## The argument buffers, wherever they are read -/

/-- A buffer that region 0 does not own and the first stretch does not write holds at region 0's exit what it held
    at launch. -/
theorem W2_kept (c : Dev nD) (b : Ref sig .tc) (h0 : ∀ w, Pipeline.arrRef spec0 w ≠ b) (h : b ∉ hostOps0_W) :
    W2 m ρ c (Proc.devRef .tc b) = m ((c : Thread nD τ).loc b) :=
  (W2_of_ne m ρ c b h0).trans (W1_of m ρ c b h)

/-- A buffer that neither region 0 nor region 1 owns and neither of the first two stretches writes holds at
    region 1's entry what it held at launch. -/
theorem W3_kept (c : Dev nD) (b : Ref sig .tc) (h1 : b ∉ hostOps1_W) (h0 : ∀ w, Pipeline.arrRef spec0 w ≠ b)
    (h : b ∉ hostOps0_W) : W3 m ρ c (Proc.devRef .tc b) = m ((c : Thread nD τ).loc b) :=
  (W3_of m ρ c b h1).trans (W2_kept m ρ c b h0 h)

/-- The same at region 1's exit. -/
theorem W4_kept (c : Dev nD) (b : Ref sig .tc) (h1' : ∀ w, Pipeline.arrRef spec1 w ≠ b) (h1 : b ∉ hostOps1_W)
    (h0 : ∀ w, Pipeline.arrRef spec0 w ≠ b) (h : b ∉ hostOps0_W) :
    W4 m ρ c (Proc.devRef .tc b) = m ((c : Thread nD τ).loc b) :=
  (W4_of_ne m ρ c b h1').trans (W3_kept m ρ c b h1 h0 h)

/-- The same at region 2's entry, for a buffer the third stretch does not write either. -/
theorem W5_kept (c : Dev nD) (b : Ref sig .tc) (h2 : b ∉ hostOps2_W) (h1' : ∀ w, Pipeline.arrRef spec1 w ≠ b)
    (h1 : b ∉ hostOps1_W) (h0 : ∀ w, Pipeline.arrRef spec0 w ≠ b) (h : b ∉ hostOps0_W) :
    W5 m ρ c (Proc.devRef .tc b) = m ((c : Thread nD τ).loc b) :=
  (W5_of m ρ c b h2).trans (W4_kept m ρ c b h1' h1 h0 h)

theorem W2_arg2 (c : Dev nD) : W2 m ρ c (Proc.devRef .tc main_arg2) = m ((c : Thread nD τ).loc main_arg2) := W2_kept m ρ c main_arg2 (by decide) (by decide)
theorem W2_arg3 (c : Dev nD) : W2 m ρ c (Proc.devRef .tc main_arg3) = m ((c : Thread nD τ).loc main_arg3) := W2_kept m ρ c main_arg3 (by decide) (by decide)
theorem W2_arg10 (c : Dev nD) : W2 m ρ c (Proc.devRef .tc main_arg10) = m ((c : Thread nD τ).loc main_arg10) := W2_kept m ρ c main_arg10 (by decide) (by decide)
theorem W4_arg4 (c : Dev nD) : W4 m ρ c (Proc.devRef .tc main_arg4) = m ((c : Thread nD τ).loc main_arg4) := W4_kept m ρ c main_arg4 (by decide) (by decide) (by decide) (by decide)
theorem W4_arg5 (c : Dev nD) : W4 m ρ c (Proc.devRef .tc main_arg5) = m ((c : Thread nD τ).loc main_arg5) := W4_kept m ρ c main_arg5 (by decide) (by decide) (by decide) (by decide)
theorem W4_arg6 (c : Dev nD) : W4 m ρ c (Proc.devRef .tc main_arg6) = m ((c : Thread nD τ).loc main_arg6) := W4_kept m ρ c main_arg6 (by decide) (by decide) (by decide) (by decide)
theorem W4_arg14 (c : Dev nD) : W4 m ρ c (Proc.devRef .tc main_arg14) = m ((c : Thread nD τ).loc main_arg14) := W4_kept m ρ c main_arg14 (by decide) (by decide) (by decide) (by decide)

/-- Region 0's second result is not touched between region 0's exit and region 1's exit. -/
theorem W4_v1_1 (c : Dev nD) : W4 m ρ c (Proc.devRef .tc main_v1_1) = W2 m ρ c (Proc.devRef .tc main_v1_1) :=
  (W4_of_ne m ρ c main_v1_1 (by decide)).trans (W3_of m ρ c main_v1_1 (by decide))

/-! ## Region 0's entry -/

theorem entry0_arg1 (c : Dev nD) : W1 m ρ c (Proc.devRef .tc main_arg1) = m ((c : Thread nD τ).loc main_arg1) := W1_of m ρ c main_arg1 (by decide)
theorem entry0_arg7 (c : Dev nD) : W1 m ρ c (Proc.devRef .tc main_arg7) = m ((c : Thread nD τ).loc main_arg7) := W1_of m ρ c main_arg7 (by decide)
theorem entry0_arg11 (c : Dev nD) : W1 m ρ c (Proc.devRef .tc main_arg11) = m ((c : Thread nD τ).loc main_arg11) := W1_of m ρ c main_arg11 (by decide)

/-- The gate's bias as a row: the 64 entries of the bias argument at the shape [1, 64]. -/
theorem entry0_bias (c : Dev nD) :
    W1 m ρ c (Proc.devRef .tc main_v0) = shapeCast S1x64 (m ((c : Thread nD τ).loc main_arg8) : (⟨S64, .f32⟩ : BufTy).Contents (Elt F)) shapeCasts_S64_S1x64 := by
  show StableHlo.after hostOps0 (W0 m ρ c) (Proc.devRef .tc main_v0) = _
  after_results
  rfl

/-! ## Region 1's entry -/

theorem entry1_arg0 (c : Dev nD) : W3 m ρ c (Proc.devRef .tc main_arg0) = m ((c : Thread nD τ).loc main_arg0) := W3_kept m ρ c main_arg0 (by decide) (by decide) (by decide)
theorem entry1_arg9 (c : Dev nD) : W3 m ρ c (Proc.devRef .tc main_arg9) = m ((c : Thread nD τ).loc main_arg9) := W3_kept m ρ c main_arg9 (by decide) (by decide) (by decide)
theorem entry1_arg12 (c : Dev nD) : W3 m ρ c (Proc.devRef .tc main_arg12) = m ((c : Thread nD τ).loc main_arg12) := W3_kept m ρ c main_arg12 (by decide) (by decide) (by decide)

/-- The nodes' bias as a row. -/
theorem entry1_bias (c : Dev nD) :
    W3 m ρ c (Proc.devRef .tc main_v12) = shapeCast S1x64 (m ((c : Thread nD τ).loc main_arg10) : (⟨S64, .f32⟩ : BufTy).Contents (Elt F)) shapeCasts_S64_S1x64 := by
  show StableHlo.after hostOps1 (W2 m ρ c) (Proc.devRef .tc main_v12) = _
  after_results
  rw [W2_arg10]
  rfl

/-- The nodes' weights: the gates of the hyperedges (region 0's first result, as region 0 left it) taken at the
    incidences' hyperedge indices (negative ones wrapped by 200000) and added up at the incidences' node indices,
    from zero. -/
theorem entry1_weight (c : Dev nD) :
    W3 m ρ c (Proc.devRef .tc main_v11)
      = Host.scatterAdd scatter_S500000x64_S2000000x1_S2000000x64_1_0_0_1 (broadcastInDim S500000x64 ![] bcast_S_S500000x64 (constant S_ .f32 0x00000000#32))
          (broadcastInDim S2000000x1 ![0] bcast_S2000000_S2000000x1_0 (m ((c : Thread nD τ).loc main_arg2) : (⟨S2000000, .i32⟩ : BufTy).Contents (Elt F)))
          (Host.gather gather_S200000x64_S2000000x1_S2000000x64_1_0_n_n_0_1_164 (W2 m ρ c (Proc.devRef .tc main_v1_0))
            (broadcastInDim S2000000x1 ![0] bcast_S2000000_S2000000x1_0 (select (cmpi .slt (m ((c : Thread nD τ).loc main_arg3) : (⟨S2000000, .i32⟩ : BufTy).Contents (Elt F)) (broadcastInDim S2000000 ![] bcast_S_S2000000 (constantI S_ 32 0#32))) (addi (m ((c : Thread nD τ).loc main_arg3) : (⟨S2000000, .i32⟩ : BufTy).Contents (Elt F)) (broadcastInDim S2000000 ![] bcast_S_S2000000 (constantI S_ 32 200000#32))) (m ((c : Thread nD τ).loc main_arg3) : (⟨S2000000, .i32⟩ : BufTy).Contents (Elt F))))) := by
  show StableHlo.after hostOps1 (W2 m ρ c) (Proc.devRef .tc main_v11) = _
  after_results
  rw [W2_arg2, W2_arg3]

/-! ## Region 2's entry -/

/-- The hyperedges' features, read by region 0 through an input window on the way. -/
theorem entry2_arg1 (c : Dev nD) : W5 m ρ c (Proc.devRef .tc main_arg1) = m ((c : Thread nD τ).loc main_arg1) :=
  (W5_of m ρ c main_arg1 (by decide)).trans <| (W4_of_ne m ρ c main_arg1 (by decide)).trans <|
    (W3_of m ρ c main_arg1 (by decide)).trans <| (W2_in m ρ c 0 rfl).trans (W1_of m ρ c main_arg1 (by decide))
theorem entry2_arg13 (c : Dev nD) : W5 m ρ c (Proc.devRef .tc main_arg13) = m ((c : Thread nD τ).loc main_arg13) :=
  W5_kept m ρ c main_arg13 (by decide) (by decide) (by decide) (by decide) (by decide)

/-- The hyperedges' bias as a row. -/
theorem entry2_bias (c : Dev nD) :
    W5 m ρ c (Proc.devRef .tc main_v32) = shapeCast S1x64 (m ((c : Thread nD τ).loc main_arg14) : (⟨S64, .f32⟩ : BufTy).Contents (Elt F)) shapeCasts_S64_S1x64 := by
  show StableHlo.after hostOps2 (W4 m ρ c) (Proc.devRef .tc main_v32) = _
  after_results
  rw [W4_arg14]
  rfl

/-- The aggregated messages: the hyperedges' linear image (region 0's second result, as region 0 left it) taken at
    the incidences' source hyperedge indices (negative ones wrapped by 200000), times the nodes' gates (region 1's
    second result, as region 1 left it) taken at the incidences' node indices (wrapped by 500000), added up at the
    incidences' target hyperedge indices, from zero. -/
theorem entry2_agg (c : Dev nD) :
    W5 m ρ c (Proc.devRef .tc main_v31)
      = Host.scatterAdd scatter_S200000x64_S2000000x1_S2000000x64_1_0_0_1 (broadcastInDim S200000x64 ![] bcast_S_S200000x64 (constant S_ .f32 0x00000000#32))
          (broadcastInDim S2000000x1 ![0] bcast_S2000000_S2000000x1_0 (m ((c : Thread nD τ).loc main_arg4) : (⟨S2000000, .i32⟩ : BufTy).Contents (Elt F)))
          (mulf
            (Host.gather gather_S200000x64_S2000000x1_S2000000x64_1_0_n_n_0_1_164 (W2 m ρ c (Proc.devRef .tc main_v1_1))
              (broadcastInDim S2000000x1 ![0] bcast_S2000000_S2000000x1_0 (select (cmpi .slt (m ((c : Thread nD τ).loc main_arg5) : (⟨S2000000, .i32⟩ : BufTy).Contents (Elt F)) (broadcastInDim S2000000 ![] bcast_S_S2000000 (constantI S_ 32 0#32))) (addi (m ((c : Thread nD τ).loc main_arg5) : (⟨S2000000, .i32⟩ : BufTy).Contents (Elt F)) (broadcastInDim S2000000 ![] bcast_S_S2000000 (constantI S_ 32 200000#32))) (m ((c : Thread nD τ).loc main_arg5) : (⟨S2000000, .i32⟩ : BufTy).Contents (Elt F)))))
            (Host.gather gather_S500000x64_S2000000x1_S2000000x64_1_0_n_n_0_1_164 (W4 m ρ c (Proc.devRef .tc main_v13_1))
              (broadcastInDim S2000000x1 ![0] bcast_S2000000_S2000000x1_0 (select (cmpi .slt (m ((c : Thread nD τ).loc main_arg6) : (⟨S2000000, .i32⟩ : BufTy).Contents (Elt F)) (broadcastInDim S2000000 ![] bcast_S_S2000000 (constantI S_ 32 0#32))) (addi (m ((c : Thread nD τ).loc main_arg6) : (⟨S2000000, .i32⟩ : BufTy).Contents (Elt F)) (broadcastInDim S2000000 ![] bcast_S_S2000000 (constantI S_ 32 500000#32))) (m ((c : Thread nD τ).loc main_arg6) : (⟨S2000000, .i32⟩ : BufTy).Contents (Elt F)))))) := by
  show StableHlo.after hostOps2 (W4 m ρ c) (Proc.devRef .tc main_v31) = _
  after_results_simp
  rw [W4_arg4, W4_arg5, W4_arg6, W4_v1_1]

/-! ## The first result -/

/-- The nodes' new features (region 1's first result) reach the return as region 1 left them. -/
theorem result0_kept (c : Dev nD) :
    W6 m ρ c (Proc.devRef .tc main_v13_0) = W4 m ρ c (Proc.devRef .tc main_v13_0) :=
  (W6_of_ne m ρ c main_v13_0 (by decide)).trans (W5_of m ρ c main_v13_0 (by decide))

end Cert.KernelIdeal.Stages

end
-- ==== Proof.KernelValue.lean ====
/-
  The idealized kernel's two results as the specification's formulas of the argument arrays.

  The first tiled pass leaves the gates of the hyperedges and their features' image under the neighbour matrix.
  On the host the gates' rows are taken per incidence and summed into the nodes' weights.  The second pass leaves
  the nodes' new features and the logistic function of their image under the node matrix.  On the host the rows of
  the two images are taken per adjacency, multiplied, and summed per hyperedge.  The third pass leaves the
  hyperedges' new features.  Each pass's result array is its dense step applied to the whole arrays it finds, and
  what it finds is what the host stretch before it left; the three are chained here, back to the launch memory.
-/
import proofs.«118772_j20126216749524_2_alg».proof.Proof.Blocks
import proofs.«118772_j20126216749524_2_alg».proof.Proof.KernelStages
import Idealize.ShloMosaic.Lib.ValueLayout

set_option maxRecDepth 16384

noncomputable section

namespace Cert.KernelIdeal.Whole

open Cert.KernelIdeal Cert.KernelIdeal.Gen Cert.HedgeSpec
open Idealize.ShloMosaic Idealize.ShloMosaic.TcCoe Idealize.ShloMosaic.ValueIdx Idealize.SL.Sem

/-- The weight of every node: the gates of the hyperedges it is incident to, summed.  Row e of the taken gates is
    the gate of hyperedge inc_hedge[e] (a negative index counted from the end), added into row inc_node[e]. -/
abbrev nodeWeight (a1 : FVec Ideal S200000x64 .f32) (a2 a3 : IVec S2000000 32) (a7 : FVec Ideal S64x64 .f32)
    (a8 : FVec Ideal S64 .f32) : FVec Ideal S500000x64 .f32 :=
  Host.scatterAdd scatter_S500000x64_S2000000x1_S2000000x64_1_0_0_1 (broadcastInDim S500000x64 ![] bcast_S_S500000x64 (constant S_ .f32 0x00000000#32)) (broadcastInDim S2000000x1 ![0] bcast_S2000000_S2000000x1_0 a2) (Host.gather gather_S200000x64_S2000000x1_S2000000x64_1_0_n_n_0_1_164 (arr (gate (cur a1) (cur a7) (cur1 a8))) (broadcastInDim S2000000x1 ![0] bcast_S2000000_S2000000x1_0 (select (cmpi .slt a3 (broadcastInDim S2000000 ![] bcast_S_S2000000 (constantI S_ 32 0#32))) (addi a3 (broadcastInDim S2000000 ![] bcast_S_S2000000 (constantI S_ 32 200000#32))) a3)))

/-- The nodes' new features. -/
abbrev nodeOut (a0 : FVec Ideal S500000x64 .f32) (a1 : FVec Ideal S200000x64 .f32) (a2 a3 : IVec S2000000 32)
    (a7 : FVec Ideal S64x64 .f32) (a8 : FVec Ideal S64 .f32) (a9 : FVec Ideal S64x64 .f32) (a10 : FVec Ideal S64 .f32) :
    FVec Ideal S500000x64 .f32 :=
  arr (nodeNew (cur a0) (cur a9) (cur1 a10) (cur (nodeWeight a1 a2 a3 a7 a8)))

/-- The messages aggregated per hyperedge: for every adjacency e the linear image of hyperedge adj_src[e] times the
    logistic function of the linear image of node adj_node[e]'s new features, added into row adj_dst[e]. -/
abbrev aggregate (X : FVec Ideal S500000x64 .f32) (a1 : FVec Ideal S200000x64 .f32) (a4 a5 a6 : IVec S2000000 32)
    (a11 a12 : FVec Ideal S64x64 .f32) : FVec Ideal S200000x64 .f32 :=
  Host.scatterAdd scatter_S200000x64_S2000000x1_S2000000x64_1_0_0_1 (broadcastInDim S200000x64 ![] bcast_S_S200000x64 (constant S_ .f32 0x00000000#32)) (broadcastInDim S2000000x1 ![0] bcast_S2000000_S2000000x1_0 a4) (mulf (Host.gather gather_S200000x64_S2000000x1_S2000000x64_1_0_n_n_0_1_164 (arr (lin (cur a1) (cur a11))) (broadcastInDim S2000000x1 ![0] bcast_S2000000_S2000000x1_0 (select (cmpi .slt a5 (broadcastInDim S2000000 ![] bcast_S_S2000000 (constantI S_ 32 0#32))) (addi a5 (broadcastInDim S2000000 ![] bcast_S_S2000000 (constantI S_ 32 200000#32))) a5))) (Host.gather gather_S500000x64_S2000000x1_S2000000x64_1_0_n_n_0_1_164 (arr (nodeSig (cur X) (cur a12))) (broadcastInDim S2000000x1 ![0] bcast_S2000000_S2000000x1_0 (select (cmpi .slt a6 (broadcastInDim S2000000 ![] bcast_S_S2000000 (constantI S_ 32 0#32))) (addi a6 (broadcastInDim S2000000 ![] bcast_S_S2000000 (constantI S_ 32 500000#32))) a6))))

/-- The hyperedges' new features. -/
abbrev hedgeOut (X : FVec Ideal S500000x64 .f32) (a1 : FVec Ideal S200000x64 .f32) (a4 a5 a6 : IVec S2000000 32)
    (a11 a12 a13 : FVec Ideal S64x64 .f32) (a14 : FVec Ideal S64 .f32) : FVec Ideal S200000x64 .f32 :=
  arr (hedgeNew (cur a1) (cur a13) (cur (aggregate X a1 a4 a5 a6 a11 a12)) (cur1 a14))

/-- A bias of 64 entries laid out as the one row of a [1, 64] array: entry q of the row is entry q of the bias. -/
theorem row0_reshape (b : FVec Ideal S64 .f32) (h : S64.ShapeCasts S1x64) : row0 (shapeCast S1x64 b h) = cur1 b :=
  funext fun q => shapeCast_a_1a_apply b h (0 : Fin 1) q

variable (m : (ℓ : Loc nD τ sig) → Buf (Elt Ideal) ℓ) (ρ : Dev nD → PrngReg)

/-- After the first pass the gates' array holds the gates of all hyperedges, of the launch arrays. -/
theorem gates_eq (c : Dev nD) :
    W2 m ρ c (Proc.devRef .tc main_v1_0)
      = arr (gate (cur (m ((c : Thread nD τ).loc main_arg1))) (cur (m ((c : Thread nD τ).loc main_arg7))) (cur1 (m ((c : Thread nD τ).loc main_arg8)))) := by
  refine ((W2_arr m ρ c 4).trans (Blocks.final0_4 (V1 m ρ) c)).trans ?_
  show arr (gate (cur (W1 m ρ c (Proc.devRef .tc main_arg1))) (cur (W1 m ρ c (Proc.devRef .tc main_arg7))) (row0 (W1 m ρ c (Proc.devRef .tc main_v0)))) = _
  rw [Stages.entry0_arg1, Stages.entry0_arg7, Stages.entry0_bias, row0_reshape]

/-- After the first pass the second result array holds the hyperedges' features times the neighbour matrix. -/
theorem images_eq (c : Dev nD) :
    W2 m ρ c (Proc.devRef .tc main_v1_1)
      = arr (lin (cur (m ((c : Thread nD τ).loc main_arg1))) (cur (m ((c : Thread nD τ).loc main_arg11)))) := by
  refine ((W2_arr m ρ c 5).trans (Blocks.final0_5 (V1 m ρ) c)).trans ?_
  show arr (lin (cur (W1 m ρ c (Proc.devRef .tc main_arg1))) (cur (W1 m ρ c (Proc.devRef .tc main_arg11)))) = _
  rw [Stages.entry0_arg1, Stages.entry0_arg11]

/-- After the second pass the first result array holds the nodes' new features. -/
theorem nodes_eq (c : Dev nD) :
    W4 m ρ c (Proc.devRef .tc main_v13_0)
      = nodeOut (m ((c : Thread nD τ).loc main_arg0)) (m ((c : Thread nD τ).loc main_arg1)) (m ((c : Thread nD τ).loc main_arg2))
          (m ((c : Thread nD τ).loc main_arg3)) (m ((c : Thread nD τ).loc main_arg7)) (m ((c : Thread nD τ).loc main_arg8))
          (m ((c : Thread nD τ).loc main_arg9)) (m ((c : Thread nD τ).loc main_arg10)) := by
  refine ((W4_arr m ρ c 5).trans (Blocks.final1_5 (V3 m ρ) c)).trans ?_
  show arr (nodeNew (cur (W3 m ρ c (Proc.devRef .tc main_arg0))) (cur (W3 m ρ c (Proc.devRef .tc main_arg9)))
      (row0 (W3 m ρ c (Proc.devRef .tc main_v12))) (cur (W3 m ρ c (Proc.devRef .tc main_v11)))) = _
  rw [Stages.entry1_arg0, Stages.entry1_arg9, Stages.entry1_bias, Stages.entry1_weight, row0_reshape, gates_eq]

/-- After the second pass the second result array holds the logistic function of the new node features' image. -/
theorem sigs_eq (c : Dev nD) :
    W4 m ρ c (Proc.devRef .tc main_v13_1)
      = arr (nodeSig (cur (nodeOut (m ((c : Thread nD τ).loc main_arg0)) (m ((c : Thread nD τ).loc main_arg1)) (m ((c : Thread nD τ).loc main_arg2))
          (m ((c : Thread nD τ).loc main_arg3)) (m ((c : Thread nD τ).loc main_arg7)) (m ((c : Thread nD τ).loc main_arg8))
          (m ((c : Thread nD τ).loc main_arg9)) (m ((c : Thread nD τ).loc main_arg10)))) (cur (m ((c : Thread nD τ).loc main_arg12)))) := by
  refine ((W4_arr m ρ c 6).trans (Blocks.final1_6 (V3 m ρ) c)).trans ?_
  show arr (nodeSig (nodeNew (cur (W3 m ρ c (Proc.devRef .tc main_arg0))) (cur (W3 m ρ c (Proc.devRef .tc main_arg9)))
      (row0 (W3 m ρ c (Proc.devRef .tc main_v12))) (cur (W3 m ρ c (Proc.devRef .tc main_v11)))) (cur (W3 m ρ c (Proc.devRef .tc main_arg12)))) = _
  rw [Stages.entry1_arg0, Stages.entry1_arg9, Stages.entry1_arg12, Stages.entry1_bias, Stages.entry1_weight, row0_reshape, gates_eq]

/-- The program's first result: the nodes' new features. -/
theorem result0 (c : Dev nD) :
    W6 m ρ c (Proc.devRef .tc main_v13_0)
      = nodeOut (m ((c : Thread nD τ).loc main_arg0)) (m ((c : Thread nD τ).loc main_arg1)) (m ((c : Thread nD τ).loc main_arg2))
          (m ((c : Thread nD τ).loc main_arg3)) (m ((c : Thread nD τ).loc main_arg7)) (m ((c : Thread nD τ).loc main_arg8))
          (m ((c : Thread nD τ).loc main_arg9)) (m ((c : Thread nD τ).loc main_arg10)) :=
  (Stages.result0_kept m ρ c).trans (nodes_eq m ρ c)

/-- The program's second result: the hyperedges' new features. -/
theorem result1 (c : Dev nD) :
    W6 m ρ c (Proc.devRef .tc main_v33)
      = hedgeOut (nodeOut (m ((c : Thread nD τ).loc main_arg0)) (m ((c : Thread nD τ).loc main_arg1)) (m ((c : Thread nD τ).loc main_arg2))
          (m ((c : Thread nD τ).loc main_arg3)) (m ((c : Thread nD τ).loc main_arg7)) (m ((c : Thread nD τ).loc main_arg8))
          (m ((c : Thread nD τ).loc main_arg9)) (m ((c : Thread nD τ).loc main_arg10)))
          (m ((c : Thread nD τ).loc main_arg1)) (m ((c : Thread nD τ).loc main_arg4)) (m ((c : Thread nD τ).loc main_arg5))
          (m ((c : Thread nD τ).loc main_arg6)) (m ((c : Thread nD τ).loc main_arg11)) (m ((c : Thread nD τ).loc main_arg12))
          (m ((c : Thread nD τ).loc main_arg13)) (m ((c : Thread nD τ).loc main_arg14)) := by
  refine ((W6_arr m ρ c 4).trans (Blocks.final2_4 (V5 m ρ) c)).trans ?_
  show arr (hedgeNew (cur (W5 m ρ c (Proc.devRef .tc main_arg1))) (cur (W5 m ρ c (Proc.devRef .tc main_arg13)))
      (cur (W5 m ρ c (Proc.devRef .tc main_v31))) (row0 (W5 m ρ c (Proc.devRef .tc main_v32)))) = _
  rw [Stages.entry2_arg1, Stages.entry2_arg13, Stages.entry2_bias, Stages.entry2_agg, row0_reshape, images_eq, sigs_eq]

end Cert.KernelIdeal.Whole

end
-- ==== Proof.LibGatherRows.lean ====
/-
  Two reads of a row gather at an index.

  Taking rows of a table by a column of start indices: for a flat table x of N entries and start indices
  idx of shape [E, 1], entry e of the result is x at idx[e, 0] read as a signed integer and clamped into
  [0, N - 1]; for a table of N rows and K columns the result's entry (e, k) is the table's entry at that
  clamped row and column k.  Both are the general gather's operand index worked out for these dimension
  numbers (one collapsed axis, the start index naming axis 0, the index vector on axis 1).
-/
import Idealize.ShloMosaic.Lib.ValueIdx

namespace Cert.HarmonicLib

open Idealize.ShloMosaic Idealize.ShloMosaic.ValueIdx

variable {α : Type}

/-- The dimension numbers of x[idx] for a flat table x : [N] and a column idx : [E, 1] of start indices. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gather from a flat table: the table at the clamped start index of e. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (flatDims N E wf) x idx y = x (ix1 ⟨min (idx (ix2 (y 0) (0 : Fin 1))).toInt.toNat (N - 1), by omega⟩) := by
  unfold Host.gather
  congr 1
  funext a
  obtain rfl : a = 0 := Subsingleton.elim _ _
  refine Fin.ext ?_
  show (flatDims N E wf).start y idx 0 + (flatDims N E wf).batchCoord y 0 + (flatDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx y ⟨List.idxOf (0 : Fin 1) (flatDims N E wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- The dimension numbers of x[idx] for a table x : [N, K] of rows and a column idx : [E, 1] of start indices. -/
abbrev rowDims (N K E : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Entry (e, k) of the gather of rows: the table at the clamped start index of e and column k. -/
theorem gather_row_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (y : (⟨2, ![E, K]⟩ : Shape).Idx) :
    Host.gather (rowDims N K E wf) x idx y
      = x (ix2 ⟨min (idx (ix2 (y 0) (0 : Fin 1))).toInt.toNat (N - 1), by omega⟩ (y 1)) := by
  unfold Host.gather
  congr 1
  funext a
  refine Fin.ext ?_
  show (rowDims N K E wf).start y idx a + (rowDims N K E wf).batchCoord y a + (rowDims N K E wf).offCoord y a = _
  rw [GatherDims.batchCoord_eq_zero _ _ _ List.not_mem_nil]
  have ha : a = 0 ∨ a = 1 := by
    revert a; show ∀ a : Fin 2, a = 0 ∨ a = 1; decide
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N K E wf).startIndexMap from List.mem_singleton.mpr rfl)]
    have hsi : (rowDims N K E wf).siIdx y ⟨List.idxOf (0 : Fin 2) (rowDims N K E wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  · have hstart : (rowDims N K E wf).start y idx (1 : Fin 2) = 0 := by
      unfold GatherDims.start
      rw [dif_neg (show (1 : Fin 2) ∉ [(0 : Fin 2)] from by decide)]
    have hk : (1 : Fin 2) ∈ (rowDims N K E wf).sKept :=
      (GatherDims.mem_sKept _ _).mpr ⟨(show (1 : Fin 2) ∉ [(0 : Fin 2)] from by decide), List.not_mem_nil⟩
    show (rowDims N K E wf).start y idx (1 : Fin 2) + 0 + (rowDims N K E wf).offCoord y (1 : Fin 2) = _
    rw [hstart]
    unfold GatherDims.offCoord
    rw [dif_pos hk]
    simp only [Nat.zero_add]
    rfl

end Cert.HarmonicLib
-- ==== Proof.RefStages.lean ====
/-
  The reference's dense stages, read as the formulas of the specification.

  Each stage of the reference is a product of a table of rows with a 64 x 64 matrix followed by entry-by-entry
  operations; read at an entry (r, q) it is the specification's formula at (r, q).  The operands are arbitrary
  tables, so these statements say nothing about where the reference gets them from.

  The one statement with content is the last but one: taking rows of a table by a column of start indices
  commutes with a stage that works row by row, because entry (e, q) of the stage applied to the taken rows sees
  only row e of the taken rows, which is the clamped row of the table.
-/
import proofs.«118772_j20126216749524_2_alg».proof.Proof.Gen.ReferenceIdeal.Read
import proofs.«118772_j20126216749524_2_alg».proof.Proof.Spec
import proofs.«118772_j20126216749524_2_alg».proof.Proof.LibGatherRows
import Idealize.ShloMosaic.Lib.IdealHost

noncomputable section

namespace Cert.ReferenceIdeal.RefStages

open Cert.ReferenceIdeal Cert.HedgeSpec Idealize.ShloMosaic Idealize.ShloMosaic.ValueIdx

variable [Cert.ReferenceIdeal.Facts]
open Cert.ReferenceIdeal.Facts₀

/-! ## The index bookkeeping of a product with a 64 x 64 matrix -/

/-- The left operand's index of term k of entry (r, q): row r, column k. -/
theorem lidx200 (r : Fin 200000) (q k : Fin 64) : Read.lidx_main_v0 (ix2 r q) k = ix2 r k := by
  funext a; match a with | ⟨0, _⟩ => rfl | ⟨1, _⟩ => rfl

/-- The right operand's index of term k of entry (r, q): row k, column q. -/
theorem ridx200 (r : Fin 200000) (q k : Fin 64) : Read.ridx_main_v0 (ix2 r q) k = ix2 k q := by
  funext a; match a with | ⟨0, _⟩ => rfl | ⟨1, _⟩ => rfl

theorem lidx500 (r : Fin 500000) (q k : Fin 64) : Read.lidx_main_v20 (ix2 r q) k = ix2 r k := by
  funext a; match a with | ⟨0, _⟩ => rfl | ⟨1, _⟩ => rfl

theorem ridx500 (r : Fin 500000) (q k : Fin 64) : Read.ridx_main_v20 (ix2 r q) k = ix2 k q := by
  funext a; match a with | ⟨0, _⟩ => rfl | ⟨1, _⟩ => rfl

/-- A table of 200000 rows times a 64 x 64 matrix, at entry (r, q). -/
theorem dot200_apply (a : FVec Ideal S200000x64 .f32) (w : FVec Ideal S64x64 .f32) (r : Fin 200000) (q : Fin 64) :
    Host.dotGeneral dot_S200000x64_S64x64_S200000x64_1_0_0_1_n_n none a w (ix2 r q) = lin (cur a) (cur w) r q := by
  refine (Read.val_main_v0_apply a w (ix2 r q)).trans ?_
  refine Finset.sum_congr rfl fun k _ => ?_
  rw [lidx200, ridx200]

/-- A table of 500000 rows times a 64 x 64 matrix, at entry (r, q). -/
theorem dot500_apply (a : FVec Ideal S500000x64 .f32) (w : FVec Ideal S64x64 .f32) (r : Fin 500000) (q : Fin 64) :
    Host.dotGeneral dot_S500000x64_S64x64_S500000x64_1_0_0_1_n_n none a w (ix2 r q) = lin (cur a) (cur w) r q := by
  refine (Read.val_main_v20_apply a w (ix2 r q)).trans ?_
  refine Finset.sum_congr rfl fun k _ => ?_
  rw [lidx500, ridx500]

/-- A table of 2000000 rows times a 64 x 64 matrix, at entry (r, q): the contraction's one axis is re-indexed by
    its coordinate, and the operands' indices of term k are (r, k) and (k, q). -/
theorem dot2M_apply (a : FVec Ideal S2000000x64 .f32) (w : FVec Ideal S64x64 .f32) (r : Fin 2000000) (q : Fin 64) :
    Host.dotGeneral dot_S2000000x64_S64x64_S2000000x64_1_0_0_1_n_n none a w (ix2 r q) = lin (cur a) (cur w) r q := by
  simp only [Host.dotGeneral]
  rw [Ideal.dotGeneral_apply, ← Equiv.sum_comp (ValueIdx.contrEquiv1 dot_S2000000x64_S64x64_S2000000x64_1_0_0_1_n_n 64 rfl rfl).symm]
  refine Finset.sum_congr rfl fun k _ => ?_
  have hk := ValueIdx.contrEquiv1_symm_val dot_S2000000x64_S64x64_S2000000x64_1_0_0_1_n_n 64 rfl rfl k
  have el : dot_S2000000x64_S64x64_S2000000x64_1_0_0_1_n_n.lhsIdx (ix2 r q) ((ValueIdx.contrEquiv1 dot_S2000000x64_S64x64_S2000000x64_1_0_0_1_n_n 64 rfl rfl).symm k) = ix2 r k := funext fun a => Fin.ext (by
    match a with
    | ⟨0, _⟩ => exact Read.lhs_main_v33_0 _ _
    | ⟨1, _⟩ => exact (Read.lhs_main_v33_1 _ _).trans hk)
  have er : dot_S2000000x64_S64x64_S2000000x64_1_0_0_1_n_n.rhsIdx (ix2 r q) ((ValueIdx.contrEquiv1 dot_S2000000x64_S64x64_S2000000x64_1_0_0_1_n_n 64 rfl rfl).symm k) = ix2 k q := funext fun a => Fin.ext (by
    match a with
    | ⟨0, _⟩ => exact (Read.rhs_main_v33_0 _ _).trans hk
    | ⟨1, _⟩ => exact Read.rhs_main_v33_1 _ _)
  rw [el, er]

/-! ## The bias row and the constant one -/

/-- A bias of 64 entries repeated along 200000 rows, at entry (r, q): entry q of the bias. -/
theorem bias200_apply (b : FVec Ideal S64 .f32) (r : Fin 200000) (q : Fin 64) :
    broadcastInDim S200000x64 ![0, 1] bcast_S1x64_S200000x64_0_1 (broadcastInDim S1x64 ![1] bcast_S64_S1x64_1 b) (ix2 r q) = cur1 b q := by
  refine (Read.val_main_v2_apply (F := Ideal) b (ix2 r q)).trans ?_
  refine (Read.val_main_v1_apply (F := Ideal) b _).trans ?_
  refine congrArg b ?_
  funext a; match a with | ⟨0, _⟩ => rfl

/-- A bias of 64 entries repeated along 500000 rows, at entry (r, q): entry q of the bias. -/
theorem bias500_apply (b : FVec Ideal S64 .f32) (r : Fin 500000) (q : Fin 64) :
    broadcastInDim S500000x64 ![0, 1] bcast_S1x64_S500000x64_0_1 (broadcastInDim S1x64 ![1] bcast_S64_S1x64_1 b) (ix2 r q) = cur1 b q := by
  refine (Read.val_main_v22_apply (F := Ideal) b (ix2 r q)).trans ?_
  refine (Read.val_main_v21_apply (F := Ideal) b _).trans ?_
  refine congrArg b ?_
  funext a; match a with | ⟨0, _⟩ => rfl

/-- The constant one over 200000 rows is one at every entry. -/
theorem one200_apply (i : S200000x64.Idx) : (broadcastInDim S200000x64 ![] bcast_S_S200000x64 (constant (F := Ideal) S_ .f32 0x3F800000#32)) i = 1 := by
  refine (Read.val_main_v6_apply (F := Ideal) i).trans ?_
  exact Ideal.ofBits_one_f32

/-- The constant one over 2000000 rows is one at every entry. -/
theorem one2M_apply (i : S2000000x64.Idx) : (broadcastInDim S2000000x64 ![] bcast_S_S2000000x64 (constant (F := Ideal) S_ .f32 0x3F800000#32)) i = 1 := by
  refine (Read.val_main_v44_apply (F := Ideal) i).trans ?_
  exact Ideal.ofBits_one_f32

/-! ## The host's entry-by-entry operations at an entry -/

section
variable {s : Shape} {φ : FTy}

/-- The host's exponential at an entry. -/
theorem hostExp_apply (a : FVec Ideal s φ) (i : s.Idx) : Host.exp a i = Ideal.exp (a i) := rfl

/-- The host's negation at an entry. -/
theorem hostNegf_apply (a : FVec Ideal s φ) (i : s.Idx) : Host.negf a i = -(a i) := rfl

/-- The host's hyperbolic tangent at an entry. -/
theorem hostTanh_apply (a : FVec Ideal s φ) (i : s.Idx) : Host.tanh a i = Ideal.tanh (a i) := rfl

end

/-- Taking rows of a table of 200000 rows by a column of 2000000 start indices, at entry (e, k): the table at the
    start index of e, clamped into the table, and column k. -/
theorem gather200_apply (x : FVec Ideal S200000x64 .f32) (I : IVec S2000000x1 32) (e : Fin 2000000) (k : Fin 64) :
    Host.gather gather_S200000x64_S2000000x1_S2000000x64_1_0_n_n_0_1_164 x I (ix2 e k)
      = x (ix2 ⟨min (I (ix2 e (0 : Fin 1))).toInt.toNat (200000 - 1), by omega⟩ k) :=
  Cert.HarmonicLib.gather_row_apply (N := 200000) (K := 64) (E := 2000000) (by decide)
    gather_S200000x64_S2000000x1_S2000000x64_1_0_n_n_0_1_164_wf x I (ix2 e k)

/-- Taking rows of a table of 500000 rows by a column of 2000000 start indices, at entry (e, k). -/
theorem gather500_apply (x : FVec Ideal S500000x64 .f32) (I : IVec S2000000x1 32) (e : Fin 2000000) (k : Fin 64) :
    Host.gather gather_S500000x64_S2000000x1_S2000000x64_1_0_n_n_0_1_164 x I (ix2 e k)
      = x (ix2 ⟨min (I (ix2 e (0 : Fin 1))).toInt.toNat (500000 - 1), by omega⟩ k) :=
  Cert.HarmonicLib.gather_row_apply (N := 500000) (K := 64) (E := 2000000) (by decide)
    gather_S500000x64_S2000000x1_S2000000x64_1_0_n_n_0_1_164_wf x I (ix2 e k)

/-! ## The four stages -/

/-- The gate of the hyperedges: 1 / (1 + exp (-(A Wg + bg))) entry by entry is the logistic function of the affine
    image. -/
theorem gate_eq (hf : FVec Ideal S200000x64 .f32) (Wg : FVec Ideal S64x64 .f32) (bg : FVec Ideal S64 .f32) :
    Host.divf (broadcastInDim S200000x64 ![] bcast_S_S200000x64 (constant (F := Ideal) S_ .f32 0x3F800000#32)) (addf (broadcastInDim S200000x64 ![] bcast_S_S200000x64 (constant (F := Ideal) S_ .f32 0x3F800000#32)) (Host.exp (Host.negf (addf (Host.dotGeneral dot_S200000x64_S64x64_S200000x64_1_0_0_1_n_n none hf Wg) (broadcastInDim S200000x64 ![0, 1] bcast_S1x64_S200000x64_0_1 (broadcastInDim S1x64 ![1] bcast_S64_S1x64_1 bg))))))
      = arr (gate (cur hf) (cur Wg) (cur1 bg)) := by
  funext j
  obtain ⟨r, q, rfl⟩ : ∃ r q, j = ix2 r q := ⟨j 0, j 1, eq_ix2 j⟩
  rw [hostDivf_apply, addf_apply, hostExp_apply, hostNegf_apply, addf_apply, one200_apply, dot200_apply, bias200_apply]
  rfl

/-- The nodes' new features: tanh ((A Wn + bn) * NW) entry by entry. -/
theorem nodeNew_eq (nf : FVec Ideal S500000x64 .f32) (Wn : FVec Ideal S64x64 .f32) (bn : FVec Ideal S64 .f32)
    (NW : FVec Ideal S500000x64 .f32) :
    Host.tanh (mulf (addf (Host.dotGeneral dot_S500000x64_S64x64_S500000x64_1_0_0_1_n_n none nf Wn) (broadcastInDim S500000x64 ![0, 1] bcast_S1x64_S500000x64_0_1 (broadcastInDim S1x64 ![1] bcast_S64_S1x64_1 bn))) NW)
      = arr (nodeNew (cur nf) (cur Wn) (cur1 bn) (cur NW)) := by
  funext j
  obtain ⟨r, q, rfl⟩ : ∃ r q, j = ix2 r q := ⟨j 0, j 1, eq_ix2 j⟩
  rw [hostTanh_apply, mulf_apply, addf_apply, dot500_apply, bias500_apply]
  rfl

/-- The messages: the linear image of the taken hyperedge rows times the logistic function of the linear image of
    the taken node rows is the product of the rows taken from the two images.  Entry (e, q) of a product with a
    matrix sees row e of its left operand only, and row e of the taken rows is the clamped row of the table. -/
theorem msg_eq (hf : FVec Ideal S200000x64 .f32) (X : FVec Ideal S500000x64 .f32) (Wh Wv : FVec Ideal S64x64 .f32)
    (I5 I6 : IVec S2000000x1 32) :
    mulf (Host.dotGeneral dot_S2000000x64_S64x64_S2000000x64_1_0_0_1_n_n none (Host.gather gather_S200000x64_S2000000x1_S2000000x64_1_0_n_n_0_1_164 hf I5) Wh) (Host.divf (broadcastInDim S2000000x64 ![] bcast_S_S2000000x64 (constant (F := Ideal) S_ .f32 0x3F800000#32)) (addf (broadcastInDim S2000000x64 ![] bcast_S_S2000000x64 (constant (F := Ideal) S_ .f32 0x3F800000#32)) (Host.exp (Host.negf (Host.dotGeneral dot_S2000000x64_S64x64_S2000000x64_1_0_0_1_n_n none (Host.gather gather_S500000x64_S2000000x1_S2000000x64_1_0_n_n_0_1_164 X I6) Wv)))))
      = mulf (Host.gather gather_S200000x64_S2000000x1_S2000000x64_1_0_n_n_0_1_164 (arr (lin (cur hf) (cur Wh))) I5) (Host.gather gather_S500000x64_S2000000x1_S2000000x64_1_0_n_n_0_1_164 (arr (nodeSig (cur X) (cur Wv))) I6) := by
  funext j
  obtain ⟨e, q, rfl⟩ : ∃ e q, j = ix2 e q := ⟨j 0, j 1, eq_ix2 j⟩
  rw [mulf_apply, mulf_apply, hostDivf_apply, addf_apply, hostExp_apply, hostNegf_apply, one2M_apply, dot2M_apply, dot2M_apply,
    gather200_apply, gather500_apply]
  have h5 : lin (cur (Host.gather gather_S200000x64_S2000000x1_S2000000x64_1_0_n_n_0_1_164 hf I5)) (cur Wh) e q
      = lin (cur hf) (cur Wh) ⟨min (I5 (ix2 e (0 : Fin 1))).toInt.toNat (200000 - 1), by omega⟩ q :=
    Finset.sum_congr rfl fun k _ => congrArg (· * Wh (ix2 k q)) (gather200_apply hf I5 e k)
  have h6 : lin (cur (Host.gather gather_S500000x64_S2000000x1_S2000000x64_1_0_n_n_0_1_164 X I6)) (cur Wv) e q
      = lin (cur X) (cur Wv) ⟨min (I6 (ix2 e (0 : Fin 1))).toInt.toNat (500000 - 1), by omega⟩ q :=
    Finset.sum_congr rfl fun k _ => congrArg (· * Wv (ix2 k q)) (gather500_apply X I6 e k)
  rw [h5, h6]
  rfl

/-- The hyperedges' new features: tanh ((A Ws + AGG) + bh) entry by entry. -/
theorem hedgeNew_eq (hf : FVec Ideal S200000x64 .f32) (Ws : FVec Ideal S64x64 .f32) (bh : FVec Ideal S64 .f32)
    (AGG : FVec Ideal S200000x64 .f32) :
    Host.tanh (addf (addf (Host.dotGeneral dot_S200000x64_S64x64_S200000x64_1_0_0_1_n_n none hf Ws) AGG) (broadcastInDim S200000x64 ![0, 1] bcast_S1x64_S200000x64_0_1 (broadcastInDim S1x64 ![1] bcast_S64_S1x64_1 bh)))
      = arr (hedgeNew (cur hf) (cur Ws) (cur AGG) (cur1 bh)) := by
  funext j
  obtain ⟨r, q, rfl⟩ : ∃ r q, j = ix2 r q := ⟨j 0, j 1, eq_ix2 j⟩
  rw [hostTanh_apply, addf_apply, addf_apply, dot200_apply, bias200_apply]
  rfl

end Cert.ReferenceIdeal.RefStages

end
-- ==== Proof.RefResult.lean ====
/-
  The reference's two results as the specification's formulas of the argument arrays.

  The reference computes the gates of the hyperedges, sums them into the nodes' weights, updates the nodes, forms
  a message per adjacency from the taken hyperedge rows and the taken rows of the updated nodes, sums the messages
  per hyperedge and updates the hyperedges.  Stage by stage its dense steps are the specification's formulas; the
  gathers and scatter-sums between them stay as they are.
-/
import proofs.«118772_j20126216749524_2_alg».proof.Proof.RefStages

noncomputable section

namespace Cert.ReferenceIdeal.RefResult

open Cert.ReferenceIdeal Cert.HedgeSpec Idealize.ShloMosaic Idealize.ShloMosaic.ValueIdx
open Cert.ReferenceIdeal.Facts₀

/-- The weight of every node: the gates of the hyperedges it is incident to, summed.  Row e of the taken gates is
    the gate of hyperedge inc_hedge[e] (a negative index counted from the end), added into row inc_node[e]. -/
abbrev nodeWeight (a1 : FVec Ideal S200000x64 .f32) (a2 a3 : IVec S2000000 32) (a7 : FVec Ideal S64x64 .f32)
    (a8 : FVec Ideal S64 .f32) : FVec Ideal S500000x64 .f32 :=
  Host.scatterAdd scatter_S500000x64_S2000000x1_S2000000x64_1_0_0_1 (broadcastInDim S500000x64 ![] bcast_S_S500000x64 (constant S_ .f32 0x00000000#32)) (broadcastInDim S2000000x1 ![0] bcast_S2000000_S2000000x1_0 a2) (Host.gather gather_S200000x64_S2000000x1_S2000000x64_1_0_n_n_0_1_164 (arr (gate (cur a1) (cur a7) (cur1 a8))) (broadcastInDim S2000000x1 ![0] bcast_S2000000_S2000000x1_0 (select (cmpi .slt a3 (broadcastInDim S2000000 ![] bcast_S_S2000000 (constantI S_ 32 0#32))) (addi a3 (broadcastInDim S2000000 ![] bcast_S_S2000000 (constantI S_ 32 200000#32))) a3)))

/-- The nodes' new features. -/
abbrev nodeOut (a0 : FVec Ideal S500000x64 .f32) (a1 : FVec Ideal S200000x64 .f32) (a2 a3 : IVec S2000000 32)
    (a7 : FVec Ideal S64x64 .f32) (a8 : FVec Ideal S64 .f32) (a9 : FVec Ideal S64x64 .f32) (a10 : FVec Ideal S64 .f32) :
    FVec Ideal S500000x64 .f32 :=
  arr (nodeNew (cur a0) (cur a9) (cur1 a10) (cur (nodeWeight a1 a2 a3 a7 a8)))

/-- The messages aggregated per hyperedge: for every adjacency e the linear image of hyperedge adj_src[e] times the
    logistic function of the linear image of node adj_node[e]'s new features, added into row adj_dst[e]. -/
abbrev aggregate (X : FVec Ideal S500000x64 .f32) (a1 : FVec Ideal S200000x64 .f32) (a4 a5 a6 : IVec S2000000 32)
    (a11 a12 : FVec Ideal S64x64 .f32) : FVec Ideal S200000x64 .f32 :=
  Host.scatterAdd scatter_S200000x64_S2000000x1_S2000000x64_1_0_0_1 (broadcastInDim S200000x64 ![] bcast_S_S200000x64 (constant S_ .f32 0x00000000#32)) (broadcastInDim S2000000x1 ![0] bcast_S2000000_S2000000x1_0 a4) (mulf (Host.gather gather_S200000x64_S2000000x1_S2000000x64_1_0_n_n_0_1_164 (arr (lin (cur a1) (cur a11))) (broadcastInDim S2000000x1 ![0] bcast_S2000000_S2000000x1_0 (select (cmpi .slt a5 (broadcastInDim S2000000 ![] bcast_S_S2000000 (constantI S_ 32 0#32))) (addi a5 (broadcastInDim S2000000 ![] bcast_S_S2000000 (constantI S_ 32 200000#32))) a5))) (Host.gather gather_S500000x64_S2000000x1_S2000000x64_1_0_n_n_0_1_164 (arr (nodeSig (cur X) (cur a12))) (broadcastInDim S2000000x1 ![0] bcast_S2000000_S2000000x1_0 (select (cmpi .slt a6 (broadcastInDim S2000000 ![] bcast_S_S2000000 (constantI S_ 32 0#32))) (addi a6 (broadcastInDim S2000000 ![] bcast_S_S2000000 (constantI S_ 32 500000#32))) a6))))

/-- The hyperedges' new features. -/
abbrev hedgeOut (X : FVec Ideal S500000x64 .f32) (a1 : FVec Ideal S200000x64 .f32) (a4 a5 a6 : IVec S2000000 32)
    (a11 a12 a13 : FVec Ideal S64x64 .f32) (a14 : FVec Ideal S64 .f32) : FVec Ideal S200000x64 .f32 :=
  arr (hedgeNew (cur a1) (cur a13) (cur (aggregate X a1 a4 a5 a6 a11 a12)) (cur1 a14))

variable (a0 : FVec Ideal S500000x64 .f32) (a1 : FVec Ideal S200000x64 .f32) (a2 a3 a4 a5 a6 : IVec S2000000 32)
  (a7 : FVec Ideal S64x64 .f32) (a8 : FVec Ideal S64 .f32) (a9 : FVec Ideal S64x64 .f32) (a10 : FVec Ideal S64 .f32)
  (a11 a12 a13 : FVec Ideal S64x64 .f32) (a14 : FVec Ideal S64 .f32)

/-- The reference's first result is the nodes' new features. -/
theorem res0_eq :
    Host.tanh (mulf (addf (Host.dotGeneral dot_S500000x64_S64x64_S500000x64_1_0_0_1_n_n none a0 a9) (broadcastInDim S500000x64 ![0, 1] bcast_S1x64_S500000x64_0_1 (broadcastInDim S1x64 ![1] bcast_S64_S1x64_1 a10))) (Host.scatterAdd scatter_S500000x64_S2000000x1_S2000000x64_1_0_0_1 (broadcastInDim S500000x64 ![] bcast_S_S500000x64 (constant S_ .f32 0x00000000#32)) (broadcastInDim S2000000x1 ![0] bcast_S2000000_S2000000x1_0 a2) (Host.gather gather_S200000x64_S2000000x1_S2000000x64_1_0_n_n_0_1_164 (Host.divf (broadcastInDim S200000x64 ![] bcast_S_S200000x64 (constant S_ .f32 0x3F800000#32)) (addf (broadcastInDim S200000x64 ![] bcast_S_S200000x64 (constant S_ .f32 0x3F800000#32)) (Host.exp (Host.negf (addf (Host.dotGeneral dot_S200000x64_S64x64_S200000x64_1_0_0_1_n_n none a1 a7) (broadcastInDim S200000x64 ![0, 1] bcast_S1x64_S200000x64_0_1 (broadcastInDim S1x64 ![1] bcast_S64_S1x64_1 a8))))))) (broadcastInDim S2000000x1 ![0] bcast_S2000000_S2000000x1_0 (select (cmpi .slt a3 (broadcastInDim S2000000 ![] bcast_S_S2000000 (constantI S_ 32 0#32))) (addi a3 (broadcastInDim S2000000 ![] bcast_S_S2000000 (constantI S_ 32 200000#32))) a3)))))
      = nodeOut a0 a1 a2 a3 a7 a8 a9 a10 := by
  rw [RefStages.gate_eq, RefStages.nodeNew_eq]

/-- The reference's second result is the hyperedges' new features: taking rows commutes with the row-wise steps. -/
theorem res1_eq :
    Host.tanh (addf (addf (Host.dotGeneral dot_S200000x64_S64x64_S200000x64_1_0_0_1_n_n none a1 a13) (Host.scatterAdd scatter_S200000x64_S2000000x1_S2000000x64_1_0_0_1 (broadcastInDim S200000x64 ![] bcast_S_S200000x64 (constant S_ .f32 0x00000000#32)) (broadcastInDim S2000000x1 ![0] bcast_S2000000_S2000000x1_0 a4) (mulf (Host.dotGeneral dot_S2000000x64_S64x64_S2000000x64_1_0_0_1_n_n none (Host.gather gather_S200000x64_S2000000x1_S2000000x64_1_0_n_n_0_1_164 a1 (broadcastInDim S2000000x1 ![0] bcast_S2000000_S2000000x1_0 (select (cmpi .slt a5 (broadcastInDim S2000000 ![] bcast_S_S2000000 (constantI S_ 32 0#32))) (addi a5 (broadcastInDim S2000000 ![] bcast_S_S2000000 (constantI S_ 32 200000#32))) a5))) a11) (Host.divf (broadcastInDim S2000000x64 ![] bcast_S_S2000000x64 (constant S_ .f32 0x3F800000#32)) (addf (broadcastInDim S2000000x64 ![] bcast_S_S2000000x64 (constant S_ .f32 0x3F800000#32)) (Host.exp (Host.negf (Host.dotGeneral dot_S2000000x64_S64x64_S2000000x64_1_0_0_1_n_n none (Host.gather gather_S500000x64_S2000000x1_S2000000x64_1_0_n_n_0_1_164 (Host.tanh (mulf (addf (Host.dotGeneral dot_S500000x64_S64x64_S500000x64_1_0_0_1_n_n none a0 a9) (broadcastInDim S500000x64 ![0, 1] bcast_S1x64_S500000x64_0_1 (broadcastInDim S1x64 ![1] bcast_S64_S1x64_1 a10))) (Host.scatterAdd scatter_S500000x64_S2000000x1_S2000000x64_1_0_0_1 (broadcastInDim S500000x64 ![] bcast_S_S500000x64 (constant S_ .f32 0x00000000#32)) (broadcastInDim S2000000x1 ![0] bcast_S2000000_S2000000x1_0 a2) (Host.gather gather_S200000x64_S2000000x1_S2000000x64_1_0_n_n_0_1_164 (Host.divf (broadcastInDim S200000x64 ![] bcast_S_S200000x64 (constant S_ .f32 0x3F800000#32)) (addf (broadcastInDim S200000x64 ![] bcast_S_S200000x64 (constant S_ .f32 0x3F800000#32)) (Host.exp (Host.negf (addf (Host.dotGeneral dot_S200000x64_S64x64_S200000x64_1_0_0_1_n_n none a1 a7) (broadcastInDim S200000x64 ![0, 1] bcast_S1x64_S200000x64_0_1 (broadcastInDim S1x64 ![1] bcast_S64_S1x64_1 a8))))))) (broadcastInDim S2000000x1 ![0] bcast_S2000000_S2000000x1_0 (select (cmpi .slt a3 (broadcastInDim S2000000 ![] bcast_S_S2000000 (constantI S_ 32 0#32))) (addi a3 (broadcastInDim S2000000 ![] bcast_S_S2000000 (constantI S_ 32 200000#32))) a3)))))) (broadcastInDim S2000000x1 ![0] bcast_S2000000_S2000000x1_0 (select (cmpi .slt a6 (broadcastInDim S2000000 ![] bcast_S_S2000000 (constantI S_ 32 0#32))) (addi a6 (broadcastInDim S2000000 ![] bcast_S_S2000000 (constantI S_ 32 500000#32))) a6))) a12)))))))) (broadcastInDim S200000x64 ![0, 1] bcast_S1x64_S200000x64_0_1 (broadcastInDim S1x64 ![1] bcast_S64_S1x64_1 a14)))
      = hedgeOut (nodeOut a0 a1 a2 a3 a7 a8 a9 a10) a1 a4 a5 a6 a11 a12 a13 a14 := by
  rw [RefStages.gate_eq, RefStages.nodeNew_eq, RefStages.msg_eq, RefStages.hedgeNew_eq]

end Cert.ReferenceIdeal.RefResult

end
-- ==== Proof.lean ====
/-
  The kernel computes one layer of message passing on a hypergraph in three tiled dense passes, with the gathers
  and scatter-sums between them on the host; the reference computes the same layer in plain array operations.

  Both programs, read on the extended reals, end with the same two arrays.  The nodes' new features are
  tanh ((N Wn + bn) * w), where w sums, per node, the gates logistic (H Wg + bg) of its incident hyperedges.  The
  hyperedges' new features are tanh ((H Ws + a) + bh), where a sums, per hyperedge, the messages
  (H Wh)[src] * logistic (N' Wv)[node] over its adjacencies, N' the nodes' new features.

  The two programs differ in two ways, and neither changes a value.  The kernel computes each dense step tile of
  rows by tile of rows, and a dense step's entry (r, q) depends on row r of its operands only.  The kernel applies
  the linear image and the logistic function BEFORE taking rows per adjacency where the reference takes rows first;
  taking rows of a table commutes with a step that works row by row.  No law of arithmetic beyond that is used, so
  the finiteness of the inputs is never needed.  The frames are the generated ones; the idealization rewrote
  nothing, so it is preserved trivially.
-/
import proofs.«118772_j20126216749524_2_alg».proof.Defs
import proofs.«118772_j20126216749524_2_alg».proof.Proof.Gen.Kernel
import proofs.«118772_j20126216749524_2_alg».proof.Proof.Gen.Kernel.Skeleton
import proofs.«118772_j20126216749524_2_alg».proof.Proof.Gen.Kernel.Launch
import proofs.«118772_j20126216749524_2_alg».proof.Proof.Gen.Kernel.Points
import proofs.«118772_j20126216749524_2_alg».proof.Proof.Gen.Kernel.Frame
import proofs.«118772_j20126216749524_2_alg».proof.Proof.Gen.KernelIdeal
import proofs.«118772_j20126216749524_2_alg».proof.Proof.Gen.KernelIdeal.Skeleton
import proofs.«118772_j20126216749524_2_alg».proof.Proof.Gen.KernelIdeal.Launch
import proofs.«118772_j20126216749524_2_alg».proof.Proof.Gen.KernelIdeal.Points
import proofs.«118772_j20126216749524_2_alg».proof.Proof.Gen.KernelIdeal.Frame
import proofs.«118772_j20126216749524_2_alg».proof.Proof.Gen.ReferenceIdeal
import proofs.«118772_j20126216749524_2_alg».proof.Proof.Gen.Pre_finite_inputs
import proofs.«118772_j20126216749524_2_alg».proof.Proof.Gen.ReferenceIdeal.Run
import proofs.«118772_j20126216749524_2_alg».proof.Proof.Gen.ReferenceIdeal.Read
import proofs.«118772_j20126216749524_2_alg».proof.Proof.KernelRun
import proofs.«118772_j20126216749524_2_alg».proof.Proof.KernelValue
import proofs.«118772_j20126216749524_2_alg».proof.Proof.RefResult
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the nodes' and the hyperedges' new features:
    the kernel by its three passes chained through the host stretches, the reference stage by stage; the two
    formulas are the same term once the arguments are identified. -/
theorem algebraic : Cert.algebraic_KernelIdeal_ReferenceIdeal := by
  intro m ρ m' ρ' _ hagree
  refine ⟨fun c => Cert.KernelIdeal.Gen.W6 m ρ c (Proc.devRef .tc Cert.KernelIdeal.main_v13_0),
    fun c => Cert.KernelIdeal.Gen.W6 m ρ c (Proc.devRef .tc Cert.KernelIdeal.main_v33),
    Cert.KernelIdeal.Named.run_named m ρ, ?_⟩
  refine (θ_run Cert.ReferenceIdeal.defs _ _).mono (fun _ h c => ?_) (Cert.ReferenceIdeal.Value.run (F := Ideal) m' ρ')
  obtain ⟨h0, h1, hargs⟩ := h c
  obtain ⟨g0, g1, g2, g3, g4, g5, g6, g7, g8, g9, g10, g11, g12, g13, g14⟩ := hagree c
  refine ⟨h0.trans ?_, h1.trans ?_, hargs⟩
  · show _ = Cert.KernelIdeal.Gen.W6 m ρ c (Proc.devRef .tc Cert.KernelIdeal.main_v13_0)
    rw [Cert.ReferenceIdeal.RefResult.res0_eq, Cert.KernelIdeal.Whole.result0 m ρ c, g0, g1, g2, g3, g7, g8, g9, g10]
    rfl
  · show _ = Cert.KernelIdeal.Gen.W6 m ρ c (Proc.devRef .tc Cert.KernelIdeal.main_v33)
    rw [Cert.ReferenceIdeal.RefResult.res1_eq, Cert.KernelIdeal.Whole.result1 m ρ c, g0, g1, g2, g3, g4, g5, g6, g7, g8, g9,
      g10, g11, g12, g13, g14]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
